-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x39x128 : Shape := ⟨3, ![2048, 39, 128]⟩
abbrev S128x39x4992 : Shape := ⟨3, ![128, 39, 4992]⟩
abbrev S_ : Shape := ⟨0, ![]⟩

class Facts : Prop where
  bcast_S_S2048x39x128 : S_.BroadcastsInDim S2048x39x128 (![] : Fin 0 → Fin S2048x39x128.rank)
  reducesTo_S2048x39x128_S_d0_1_2 : S2048x39x128.ReducesTo [0, 1, 2] S_
  h_S_ : 0 < S_.numel
  bcast_S_S128x39x4992 : S_.BroadcastsInDim S128x39x4992 (![] : Fin 0 → Fin S128x39x4992.rank)
  reducesTo_S128x39x4992_S_d0_1_2 : S128x39x4992.ReducesTo [0, 1, 2] S_

variable [Facts]

def fn {F : FTy → Type} [FloatOps F] (main_arg0 : FVec F S2048x39x128 .f32) (main_arg1 : FVec F S128x39x4992 .f32) (main_arg2 : FVec F S128x39x4992 .f32) : IVec S_ 1 :=
  let main_v0 : FVec F S2048x39x128 .f32 := Host.absf main_arg0
  let main_cst : FVec F S_ .f32 := constant S_ .f32 0x7F800000#32
  let main_v1 : FVec F S2048x39x128 .f32 := broadcastInDim S2048x39x128 ![] bcast_S_S2048x39x128 main_cst
  let main_v2 : IVec S2048x39x128 1 := cmpf .olt main_v0 main_v1
  let main_c : IVec S_ 1 := constantI S_ 1 1#1
  let main_v3 : IVec S_ 1 := (fun x v => Host.reduce IntOp.andi x v reducesTo_S2048x39x128_S_d0_1_2 h_S_) main_v2 main_c
  let main_v4 : FVec F S128x39x4992 .f32 := Host.absf main_arg1
  let main_cst_0 : FVec F S_ .f32 := constant S_ .f32 0x7F800000#32
  let main_v5 : FVec F S128x39x4992 .f32 := broadcastInDim S128x39x4992 ![] bcast_S_S128x39x4992 main_cst_0
  let main_v6 : IVec S128x39x4992 1 := cmpf .olt main_v4 main_v5
  let main_c_1 : IVec S_ 1 := constantI S_ 1 1#1
  let main_v7 : IVec S_ 1 := (fun x v => Host.reduce IntOp.andi x v reducesTo_S128x39x4992_S_d0_1_2 h_S_) main_v6 main_c_1
  let main_v8 : IVec S_ 1 := andi main_v3 main_v7
  let main_v9 : FVec F S128x39x4992 .f32 := Host.absf main_arg2
  let main_cst_2 : FVec F S_ .f32 := constant S_ .f32 0x7F800000#32
  let main_v10 : FVec F S128x39x4992 .f32 := broadcastInDim S128x39x4992 ![] bcast_S_S128x39x4992 main_cst_2
  let main_v11 : IVec S128x39x4992 1 := cmpf .olt main_v9 main_v10
  let main_c_3 : IVec S_ 1 := constantI S_ 1 1#1
  let main_v12 : IVec S_ 1 := (fun x v => Host.reduce IntOp.andi x v reducesTo_S128x39x4992_S_d0_1_2 h_S_) main_v11 main_c_3
  let main_v13 : IVec S_ 1 := andi main_v8 main_v12
  main_v13
-- ==== Kernel.lean ====
abbrev S2048x39x128 : Shape := ⟨3, ![2048, 39, 128]⟩
abbrev S128x39x4992 : Shape := ⟨3, ![128, 39, 4992]⟩
abbrev S2048x4992 : Shape := ⟨2, ![2048, 4992]⟩
abbrev S256x128 : Shape := ⟨2, ![256, 128]⟩
abbrev S256x39x128 : Shape := ⟨3, ![256, 39, 128]⟩
abbrev S128x39x128 : Shape := ⟨3, ![128, 39, 128]⟩
abbrev S128x1x128 : Shape := ⟨3, ![128, 1, 128]⟩
abbrev S128x128 : Shape := ⟨2, ![128, 128]⟩
abbrev S256x1x128 : Shape := ⟨3, ![256, 1, 128]⟩
abbrev S256x39 : Shape := ⟨2, ![256, 39]⟩
abbrev S256x39x1 : Shape := ⟨3, ![256, 39, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x39x128, .f32⟩
  | .hbm, ⟨1, _⟩ => ⟨S128x39x4992, .f32⟩
  | .hbm, ⟨2, _⟩ => ⟨S128x39x4992, .f32⟩
  | .hbm, ⟨3, _⟩ => ⟨S2048x4992, .f32⟩
  | .hbm, ⟨4, _⟩ => ⟨S2048x39x128, .f32⟩
  | .local _ .vmem, ⟨0, _⟩ => ⟨S256x128, .f32⟩
  | .local _ .vmem, ⟨1, _⟩ => ⟨S256x128, .f32⟩
  | .local _ .vmem, ⟨2, _⟩ => ⟨S256x39x128, .f32⟩
  | .local _ .vmem, ⟨3, _⟩ => ⟨S128x39x128, .f32⟩
  | .local _ .vmem, ⟨4, _⟩ => ⟨S128x39x128, .f32⟩
  | .local _ .vmem, ⟨5, _⟩ => ⟨S128x39x128, .f32⟩
  | .local _ .vmem, ⟨6, _⟩ => ⟨S128x39x128, .f32⟩
  | .local _ .vmem, ⟨7, _⟩ => ⟨S256x39x128, .f32⟩
  | .local _ .vmem, ⟨8, _⟩ => ⟨S256x39x128, .f32⟩
  | .local _ .vmem, ⟨9, _⟩ => ⟨S256x39x128, .f32⟩
  | _, _ => ⟨S2048x39x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 39], ![false, false]⟩

def k0_cond2 (i : grid0.Coords) : BitVec 1 :=
  let arg1 : BitVec 32 := BitVec.ofNat 32 (i 1).val
  let c38_i32 : BitVec 32 := 38#32
  let v788 : BitVec 1 := Scalar.cmpi .eq arg1 c38_i32
  let v789 : BitVec 32 := Scalar.extui v788
  let c0_i32_515 : BitVec 32 := 0#32
  let v790 : BitVec 1 := Scalar.cmpi .ne v789 c0_i32_515
  v790

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x39x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S128x39x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x39x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x39x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S2048x39x128_S2048x4992 : S2048x39x128.ShapeCasts S2048x4992
  inb_S256x39x128_S256x39x128_0_0_0 : ∀ a, (![0, 0, 0] : Fin 3 → Nat) a + S256x39x128.size a ≤ S256x39x128.size a
  h_S256x39x128 : 0 < S256x39x128.numel
  shapeCasts_S256x39x128_S256x39x128 : S256x39x128.ShapeCasts S256x39x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  inb_S128x39x128_S128x39x128_0_0_0 : ∀ a, (![0, 0, 0] : Fin 3 → Nat) a + S128x39x128.size a ≤ S128x39x128.size a
  h_S128x39x128 : 0 < S128x39x128.numel
  slices_S128x39x128_o0_0_0_S128x1x128 : S128x39x128.Slices ![0, 0, 0] S128x1x128
  shapeCasts_S128x1x128_S128x128 : S128x1x128.ShapeCasts S128x128
  inb_S256x39x128_S256x1x128_0_0_0 : ∀ a, (![0, 0, 0] : Fin 3 → Nat) a + S256x1x128.size a ≤ S256x39x128.size a
  h_S256x1x128 : 0 < S256x1x128.numel
  shapeCasts_S256x1x128_S256x128 : S256x1x128.ShapeCasts S256x128
  shapeCasts_S256x128_S256x1x128 : S256x128.ShapeCasts S256x1x128
  slices_S128x39x128_o0_1_0_S128x1x128 : S128x39x128.Slices ![0, 1, 0] S128x1x128
  inb_S256x39x128_S256x1x128_0_1_0 : ∀ a, (![0, 1, 0] : Fin 3 → Nat) a + S256x1x128.size a ≤ S256x39x128.size a
  slices_S128x39x128_o0_2_0_S128x1x128 : S128x39x128.Slices ![0, 2, 0] S128x1x128
  inb_S256x39x128_S256x1x128_0_2_0 : ∀ a, (![0, 2, 0] : Fin 3 → Nat) a + S256x1x128.size a ≤ S256x39x128.size a
  slices_S128x39x128_o0_3_0_S128x1x128 : S128x39x128.Slices ![0, 3, 0] S128x1x128
  inb_S256x39x128_S256x1x128_0_3_0 : ∀ a, (![0, 3, 0] : Fin 3 → Nat) a + S256x1x128.size a ≤ S256x39x128.size a
  slices_S128x39x128_o0_4_0_S128x1x128 : S128x39x128.Slices ![0, 4, 0] S128x1x128
  inb_S256x39x128_S256x1x128_0_4_0 : ∀ a, (![0, 4, 0] : Fin 3 → Nat) a + S256x1x128.size a ≤ S256x39x128.size a
  slices_S128x39x128_o0_5_0_S128x1x128 : S128x39x128.Slices ![0, 5, 0] S128x1x128
  inb_S256x39x128_S256x1x128_0_5_0 : ∀ a, (![0, 5, 0] : Fin 3 → Nat) a + S256x1x128.size a ≤ S256x39x128.size a
  slices_S128x39x128_o0_6_0_S128x1x128 : S128x39x128.Slices ![0, 6, 0] S128x1x128
  inb_S256x39x128_S256x1x128_0_6_0 : ∀ a, (![0, 6, 0] : Fin 3 → Nat) a + S256x1x128.size a ≤ S256x39x128.size a
  slices_S128x39x128_o0_7_0_S128x1x128 : S128x39x128.Slices ![0, 7, 0] S128x1x128
  inb_S256x39x128_S256x1x128_0_7_0 : ∀ a, (![0, 7, 0] : Fin 3 → Nat) a + S256x1x128.size a ≤ S256x39x128.size a
  slices_S128x39x128_o0_8_0_S128x1x128 : S128x39x128.Slices ![0, 8, 0] S128x1x128
  inb_S256x39x128_S256x1x128_0_8_0 : ∀ a, (![0, 8, 0] : Fin 3 → Nat) a + S256x1x128.size a ≤ S256x39x128.size a
  slices_S128x39x128_o0_9_0_S128x1x128 : S128x39x128.Slices ![0, 9, 0] S128x1x128
  inb_S256x39x128_S256x1x128_0_9_0 : ∀ a, (![0, 9, 0] : Fin 3 → Nat) a + S256x1x128.size a ≤ S256x39x128.size a
  slices_S128x39x128_o0_10_0_S128x1x128 : S128x39x128.Slices ![0, 10, 0] S128x1x128
  inb_S256x39x128_S256x1x128_0_10_0 : ∀ a, (![0, 10, 0] : Fin 3 → Nat) a + S256x1x128.size a ≤ S256x39x128.size a
  slices_S128x39x128_o0_11_0_S128x1x128 : S128x39x128.Slices ![0, 11, 0] S128x1x128
  inb_S256x39x128_S256x1x128_0_11_0 : ∀ a, (![0, 11, 0] : Fin 3 → Nat) a + S256x1x128.size a ≤ S256x39x128.size a
  slices_S128x39x128_o0_12_0_S128x1x128 : S128x39x128.Slices ![0, 12, 0] S128x1x128
  inb_S256x39x128_S256x1x128_0_12_0 : ∀ a, (![0, 12, 0] : Fin 3 → Nat) a + S256x1x128.size a ≤ S256x39x128.size a
  slices_S128x39x128_o0_13_0_S128x1x128 : S128x39x128.Slices ![0, 13, 0] S128x1x128
  inb_S256x39x128_S256x1x128_0_13_0 : ∀ a, (![0, 13, 0] : Fin 3 → Nat) a + S256x1x128.size a ≤ S256x39x128.size a
  slices_S128x39x128_o0_14_0_S128x1x128 : S128x39x128.Slices ![0, 14, 0] S128x1x128
  inb_S256x39x128_S256x1x128_0_14_0 : ∀ a, (![0, 14, 0] : Fin 3 → Nat) a + S256x1x128.size a ≤ S256x39x128.size a
  slices_S128x39x128_o0_15_0_S128x1x128 : S128x39x128.Slices ![0, 15, 0] S128x1x128
  inb_S256x39x128_S256x1x128_0_15_0 : ∀ a, (![0, 15, 0] : Fin 3 → Nat) a + S256x1x128.size a ≤ S256x39x128.size a
  slices_S128x39x128_o0_16_0_S128x1x128 : S128x39x128.Slices ![0, 16, 0] S128x1x128
  inb_S256x39x128_S256x1x128_0_16_0 : ∀ a, (![0, 16, 0] : Fin 3 → Nat) a + S256x1x128.size a ≤ S256x39x128.size a
  slices_S128x39x128_o0_17_0_S128x1x128 : S128x39x128.Slices ![0, 17, 0] S128x1x128
  inb_S256x39x128_S256x1x128_0_17_0 : ∀ a, (![0, 17, 0] : Fin 3 → Nat) a + S256x1x128.size a ≤ S256x39x128.size a
  slices_S128x39x128_o0_18_0_S128x1x128 : S128x39x128.Slices ![0, 18, 0] S128x1x128
  inb_S256x39x128_S256x1x128_0_18_0 : ∀ a, (![0, 18, 0] : Fin 3 → Nat) a + S256x1x128.size a ≤ S256x39x128.size a
  slices_S128x39x128_o0_19_0_S128x1x128 : S128x39x128.Slices ![0, 19, 0] S128x1x128
  inb_S256x39x128_S256x1x128_0_19_0 : ∀ a, (![0, 19, 0] : Fin 3 → Nat) a + S256x1x128.size a ≤ S256x39x128.size a
  slices_S128x39x128_o0_20_0_S128x1x128 : S128x39x128.Slices ![0, 20, 0] S128x1x128
  inb_S256x39x128_S256x1x128_0_20_0 : ∀ a, (![0, 20, 0] : Fin 3 → Nat) a + S256x1x128.size a ≤ S256x39x128.size a
  slices_S128x39x128_o0_21_0_S128x1x128 : S128x39x128.Slices ![0, 21, 0] S128x1x128
  inb_S256x39x128_S256x1x128_0_21_0 : ∀ a, (![0, 21, 0] : Fin 3 → Nat) a + S256x1x128.size a ≤ S256x39x128.size a
  slices_S128x39x128_o0_22_0_S128x1x128 : S128x39x128.Slices ![0, 22, 0] S128x1x128
  inb_S256x39x128_S256x1x128_0_22_0 : ∀ a, (![0, 22, 0] : Fin 3 → Nat) a + S256x1x128.size a ≤ S256x39x128.size a
  slices_S128x39x128_o0_23_0_S128x1x128 : S128x39x128.Slices ![0, 23, 0] S128x1x128
  inb_S256x39x128_S256x1x128_0_23_0 : ∀ a, (![0, 23, 0] : Fin 3 → Nat) a + S256x1x128.size a ≤ S256x39x128.size a
  slices_S128x39x128_o0_24_0_S128x1x128 : S128x39x128.Slices ![0, 24, 0] S128x1x128
  inb_S256x39x128_S256x1x128_0_24_0 : ∀ a, (![0, 24, 0] : Fin 3 → Nat) a + S256x1x128.size a ≤ S256x39x128.size a
  slices_S128x39x128_o0_25_0_S128x1x128 : S128x39x128.Slices ![0, 25, 0] S128x1x128
  inb_S256x39x128_S256x1x128_0_25_0 : ∀ a, (![0, 25, 0] : Fin 3 → Nat) a + S256x1x128.size a ≤ S256x39x128.size a
  slices_S128x39x128_o0_26_0_S128x1x128 : S128x39x128.Slices ![0, 26, 0] S128x1x128
  inb_S256x39x128_S256x1x128_0_26_0 : ∀ a, (![0, 26, 0] : Fin 3 → Nat) a + S256x1x128.size a ≤ S256x39x128.size a
  slices_S128x39x128_o0_27_0_S128x1x128 : S128x39x128.Slices ![0, 27, 0] S128x1x128
  inb_S256x39x128_S256x1x128_0_27_0 : ∀ a, (![0, 27, 0] : Fin 3 → Nat) a + S256x1x128.size a ≤ S256x39x128.size a
  slices_S128x39x128_o0_28_0_S128x1x128 : S128x39x128.Slices ![0, 28, 0] S128x1x128
  inb_S256x39x128_S256x1x128_0_28_0 : ∀ a, (![0, 28, 0] : Fin 3 → Nat) a + S256x1x128.size a ≤ S256x39x128.size a
  slices_S128x39x128_o0_29_0_S128x1x128 : S128x39x128.Slices ![0, 29, 0] S128x1x128
  inb_S256x39x128_S256x1x128_0_29_0 : ∀ a, (![0, 29, 0] : Fin 3 → Nat) a + S256x1x128.size a ≤ S256x39x128.size a
  slices_S128x39x128_o0_30_0_S128x1x128 : S128x39x128.Slices ![0, 30, 0] S128x1x128
  inb_S256x39x128_S256x1x128_0_30_0 : ∀ a, (![0, 30, 0] : Fin 3 → Nat) a + S256x1x128.size a ≤ S256x39x128.size a
  slices_S128x39x128_o0_31_0_S128x1x128 : S128x39x128.Slices ![0, 31, 0] S128x1x128
  inb_S256x39x128_S256x1x128_0_31_0 : ∀ a, (![0, 31, 0] : Fin 3 → Nat) a + S256x1x128.size a ≤ S256x39x128.size a
  slices_S128x39x128_o0_32_0_S128x1x128 : S128x39x128.Slices ![0, 32, 0] S128x1x128
  inb_S256x39x128_S256x1x128_0_32_0 : ∀ a, (![0, 32, 0] : Fin 3 → Nat) a + S256x1x128.size a ≤ S256x39x128.size a
  slices_S128x39x128_o0_33_0_S128x1x128 : S128x39x128.Slices ![0, 33, 0] S128x1x128
  inb_S256x39x128_S256x1x128_0_33_0 : ∀ a, (![0, 33, 0] : Fin 3 → Nat) a + S256x1x128.size a ≤ S256x39x128.size a
  slices_S128x39x128_o0_34_0_S128x1x128 : S128x39x128.Slices ![0, 34, 0] S128x1x128
  inb_S256x39x128_S256x1x128_0_34_0 : ∀ a, (![0, 34, 0] : Fin 3 → Nat) a + S256x1x128.size a ≤ S256x39x128.size a
  slices_S128x39x128_o0_35_0_S128x1x128 : S128x39x128.Slices ![0, 35, 0] S128x1x128
  inb_S256x39x128_S256x1x128_0_35_0 : ∀ a, (![0, 35, 0] : Fin 3 → Nat) a + S256x1x128.size a ≤ S256x39x128.size a
  slices_S128x39x128_o0_36_0_S128x1x128 : S128x39x128.Slices ![0, 36, 0] S128x1x128
  inb_S256x39x128_S256x1x128_0_36_0 : ∀ a, (![0, 36, 0] : Fin 3 → Nat) a + S256x1x128.size a ≤ S256x39x128.size a
  slices_S128x39x128_o0_37_0_S128x1x128 : S128x39x128.Slices ![0, 37, 0] S128x1x128
  inb_S256x39x128_S256x1x128_0_37_0 : ∀ a, (![0, 37, 0] : Fin 3 → Nat) a + S256x1x128.size a ≤ S256x39x128.size a
  slices_S128x39x128_o0_38_0_S128x1x128 : S128x39x128.Slices ![0, 38, 0] S128x1x128
  inb_S256x39x128_S256x1x128_0_38_0 : ∀ a, (![0, 38, 0] : Fin 3 → Nat) a + S256x1x128.size a ≤ S256x39x128.size a
  reduces_S256x39x128_S256x39 : S256x39x128.Reduces [2] S256x39
  shapeCasts_S256x39_S256x39x1 : S256x39.ShapeCasts S256x39x1
  broadcasts_S256x39x1_S256x39x128 : S256x39x1.Broadcasts S256x39x128
  dot_S256x128_S128x128_S256x128_1_1_0_0_n_n_wf : DotDims.WF S256x128 S128x128 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x4992.size a
  hwx0_0 : ∀ i : grid0.Coords, EltTy.bits .f32 = 32 ∨ (Rect.block (s := S2048x4992) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x39x128.size a ≤ S2048x39x128.size a
  hwx0_1 : ∀ i : grid0.Coords, EltTy.bits .f32 = 32 ∨ (Rect.block (s := S2048x39x128) S256x39x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x39x128.size a ≤ S128x39x4992.size a
  hwx0_2 : ∀ i : grid0.Coords, EltTy.bits .f32 = 32 ∨ (Rect.block (s := S128x39x4992) S128x39x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x39x128.size a ≤ S128x39x4992.size a
  hwx0_3 : ∀ i : grid0.Coords, EltTy.bits .f32 = 32 ∨ (Rect.block (s := S128x39x4992) S128x39x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x39x128.size a ≤ S2048x39x128.size a
  hwx0_4 : ∀ i : grid0.Coords, EltTy.bits .f32 = 32 ∨ (Rect.block (s := S2048x39x128) S256x39x128.size (cc0_transform_4 i) (hinb0_4 i)).WholeWords (EltTy.packing .f32)

variable [Facts₀]

def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x39x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x39x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x39x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x39x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x39x128 : Shape := ⟨3, ![2048, 39, 128]⟩
abbrev S128x39x4992 : Shape := ⟨3, ![128, 39, 4992]⟩
abbrev S2048x4992 : Shape := ⟨2, ![2048, 4992]⟩
abbrev S128x39x2048 : Shape := ⟨3, ![128, 39, 2048]⟩
abbrev S_ : Shape := ⟨0, ![]⟩
abbrev S2048x39 : Shape := ⟨2, ![2048, 39]⟩
abbrev S2048x39x1 : Shape := ⟨3, ![2048, 39, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x39x128, .f32⟩
  | .hbm, ⟨1, _⟩ => ⟨S128x39x4992, .f32⟩
  | .hbm, ⟨2, _⟩ => ⟨S128x39x4992, .f32⟩
  | .hbm, ⟨3, _⟩ => ⟨S2048x4992, .f32⟩
  | .hbm, ⟨4, _⟩ => ⟨S128x39x2048, .f32⟩
  | .hbm, ⟨5, _⟩ => ⟨S2048x39x128, .f32⟩
  | .hbm, ⟨6, _⟩ => ⟨S128x39x2048, .f32⟩
  | .hbm, ⟨7, _⟩ => ⟨S2048x39x128, .f32⟩
  | .hbm, ⟨8, _⟩ => ⟨S2048x39x128, .f32⟩
  | .hbm, ⟨9, _⟩ => ⟨S_, .f32⟩
  | .hbm, ⟨10, _⟩ => ⟨S2048x39, .f32⟩
  | .hbm, ⟨11, _⟩ => ⟨S2048x39x1, .f32⟩
  | .hbm, ⟨12, _⟩ => ⟨S2048x39x1, .f32⟩
  | .hbm, ⟨13, _⟩ => ⟨S2048x39x1, .f32⟩
  | .hbm, ⟨14, _⟩ => ⟨S_, .f32⟩
  | .hbm, ⟨15, _⟩ => ⟨S2048x39x1, .f32⟩
  | .hbm, ⟨16, _⟩ => ⟨S2048x39x1, .f32⟩
  | .hbm, ⟨17, _⟩ => ⟨S_, .f32⟩
  | .hbm, ⟨18, _⟩ => ⟨S2048x39x1, .f32⟩
  | .hbm, ⟨19, _⟩ => ⟨S2048x39x1, .f32⟩
  | .hbm, ⟨20, _⟩ => ⟨S2048x39x128, .f32⟩
  | .hbm, ⟨21, _⟩ => ⟨S_, .f32⟩
  | .hbm, ⟨22, _⟩ => ⟨S2048x39x1, .f32⟩
  | .hbm, ⟨23, _⟩ => ⟨S2048x39x1, .f32⟩
  | .hbm, ⟨24, _⟩ => ⟨S2048x39x128, .f32⟩
  | .hbm, ⟨25, _⟩ => ⟨S2048x39x128, .f32⟩
  | .hbm, ⟨26, _⟩ => ⟨S2048x39x128, .f32⟩
  | .hbm, ⟨27, _⟩ => ⟨S2048x39x128, .f32⟩
  | .hbm, ⟨28, _⟩ => ⟨S2048x39x128, .f32⟩
  | _, _ => ⟨S2048x39x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  shapeCasts_S2048x39x128_S2048x4992 : S2048x39x128.ShapeCasts S2048x4992
  transposes_S128x39x2048_S2048x39x128_2_1_0 : S128x39x2048.Transposes [2, 1, 0] S2048x39x128
  reducesTo_S2048x39x128_S2048x39_d2 : S2048x39x128.ReducesTo [2] S2048x39
  h_S_ : 0 < S_.numel
  bcast_S2048x39_S2048x39x1_0_1 : S2048x39.BroadcastsInDim S2048x39x1 (![0, 1] : Fin 2 → Fin S2048x39x1.rank)
  bcast_S_S2048x39x1 : S_.BroadcastsInDim S2048x39x1 (![] : Fin 0 → Fin S2048x39x1.rank)
  bcast_S2048x39x1_S2048x39x128_0_1_2 : S2048x39x1.BroadcastsInDim S2048x39x128 (![0, 1, 2] : Fin 3 → Fin S2048x39x128.rank)
  dot_S128x39x4992_S2048x4992_S128x39x2048_2_1_01_0_n_n_wf : DotDims.WF S128x39x4992 S2048x4992 S128x39x2048 [2] [1] [0, 1] [0] [] []

variable [Facts₀]

def dot_S128x39x4992_S2048x4992_S128x39x2048_2_1_01_0_n_n : DotDims S128x39x4992 S2048x4992 S128x39x2048 where
  lhsContracting := [2]
  rhsContracting := [1]
  lhsNonContracting := [0, 1]
  rhsNonContracting := [0]
  lhsBatch := []
  rhsBatch := []
  wf := dot_S128x39x4992_S2048x4992_S128x39x2048_2_1_01_0_n_n_wf

class Facts : Prop extends Facts₀ where

variable [Facts]
-- ==== Proof.LibColOps.lean ====
/-
  More two-dimensional vector operations read at one index, on the extended reals.

  A matrix product that contracts the SECOND axis of both operands, [M, K] against [N, K], is at (r, c) the sum over
  the shared axis of the left operand's row r against the right operand's row c.  A sum along the FIRST axis of an
  [a, b] vector is, at column c, the sum of that column.  An [a, p] vector with two [a, 1] columns appended along the
  second axis reads, at (r, e), the first piece for e < p, the first column at e = p and the second at e = p + 1; a sum
  over the p + 2 positions of such a row therefore splits into the sum over the first p and the two last terms.
-/
import Idealize.ShloMosaic.PureOps.Ideal.Laws
import Idealize.ShloMosaic.Lib.ValueIdx
import Idealize.ShloMosaic.Lib.Pipeline.Value

noncomputable section

namespace Cert.ColOps

open Idealize.ShloMosaic Idealize.ShloMosaic.ValueIdx

/-! ## A matrix product contracting both operands' second axes -/

/-- The dimension numbers of an `[M, K] × [N, K]` product: contract the second axis of each operand, no batch axis. -/
structure IsRowRow {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section RowRow

variable {M K N : Nat} {d : DotDims ⟨2, ![M, K]⟩ ⟨2, ![N, K]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsRowRow d) : d.contr.rank = 1 := by
  rw [d.rank_contr, hd.lc]; rfl

theorem contr_size (hd : IsRowRow d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsRowRow d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's row coordinate is the result's column coordinate. -/
theorem rhsIdx_row (hd : IsRowRow d) (j : (⟨2, ![M, N]⟩ : Shape).Idx) (k : d.contr.Idx) :
    (d.rhsIdx j k 0).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- Such a product into a zero accumulator, at (r, c): the sum over the shared axis of row r against row c. -/
theorem matmul_zero_apply (hd : IsRowRow d) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul d prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 c k :=
    funext fun a => Fin.ext (by
      match a with
      | ⟨0, _⟩ => exact rhsIdx_row hd _ _
      | ⟨1, _⟩ => exact (d.rhsIdx_val_of_single hd.rc _ _).trans hk)
  rw [el, er]

end RowRow

/-! ## A sum along the first axis -/

section Cols

variable {a b : Nat} {φ : FTy}

/-- The index over column `c` with first coordinate `k`. -/
theorem lift_col (h : (⟨2, ![a, b]⟩ : Shape).Reduces [0] ⟨1, ![b]⟩) (c : Fin b) (k : Fin a) :
    h.lift (ix1 c) k = ix2 k c :=
  funext fun x => Fin.ext (by
    show h.liftVal (ix1 c) k.val x = (ix2 k c x).val
    unfold Shape.Reduces.liftVal
    match x with
    | ⟨0, _⟩ => rfl
    | ⟨1, _⟩ => rfl)

/-- A sum along the first axis, at column `c`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_col h c k)

end Cols

/-! ## Two columns appended to a matrix -/

section Append

variable {α : Type} {a p q : Nat}

/-- Left of the appended columns the concatenation reads the matrix. -/
theorem append2_left (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val < p) :
    concatenate ⟨2, ![a, q]⟩ 1 [⟨⟨2, ![a, p]⟩, x⟩, ⟨⟨2, ![a, 1]⟩, y⟩, ⟨⟨2, ![a, 1]⟩, z⟩] h (ix2 r e)
      = x (ix2 r ⟨e.val, he⟩) :=
  concatenate_apply_piece (t := ⟨2, ![a, q]⟩) 1 [⟨⟨2, ![a, p]⟩, x⟩, ⟨⟨2, ![a, 1]⟩, y⟩, ⟨⟨2, ![a, 1]⟩, z⟩] h (ix2 r e) 0 (by simp) ⟨2, ![a, p]⟩ x rfl rfl 0 rfl (ix2 r ⟨e.val, he⟩)
    (fun b hb => by
      match b with
      | ⟨0, _⟩ => rfl
      | ⟨1, _⟩ => exact absurd rfl hb)
    (Nat.zero_add _)

/-- At position `p` it reads the first appended column. -/
theorem append2_mid (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p) :
    concatenate ⟨2, ![a, q]⟩ 1 [⟨⟨2, ![a, p]⟩, x⟩, ⟨⟨2, ![a, 1]⟩, y⟩, ⟨⟨2, ![a, 1]⟩, z⟩] h (ix2 r e)
      = y (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 1 (by simp) ⟨2, ![a, 1]⟩ y rfl rfl p (by simp) (ix2 r (0 : Fin 1))
    (fun b hb => by
      match b with
      | ⟨0, _⟩ => rfl
      | ⟨1, _⟩ => exact absurd rfl hb)
    (by show p + 0 = e.val; omega)

/-- At position `p + 1` it reads the second appended column. -/
theorem append2_right (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p + 1) :
    concatenate ⟨2, ![a, q]⟩ 1 [⟨⟨2, ![a, p]⟩, x⟩, ⟨⟨2, ![a, 1]⟩, y⟩, ⟨⟨2, ![a, 1]⟩, z⟩] h (ix2 r e)
      = z (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 2 (by simp) ⟨2, ![a, 1]⟩ z rfl rfl (p + 1) (by simp) (ix2 r (0 : Fin 1))
    (fun b hb => by
      match b with
      | ⟨0, _⟩ => rfl
      | ⟨1, _⟩ => exact absurd rfl hb)
    (by show p + 1 + 0 = e.val; omega)

end Append

/-- A sum over `p + 2` positions: the first `p`, then the two last. -/
theorem sum_append2 {M : Type*} [AddCommMonoid M] (p : Nat) (f : Fin (p + 2) → M) :
    ∑ e, f e = ∑ d : Fin p, f ⟨d.val, by omega⟩ + f ⟨p, by omega⟩ + f ⟨p + 1, by omega⟩ := by
  rw [Fin.sum_univ_castSucc, Fin.sum_univ_castSucc]
  rfl

end Cert.ColOps

end
-- ==== Proof.LibGroupOps.lean ====
/-
  Three-dimensional vector operations read at one index, on the extended reals.

  A body that normalises groups of rows views an [a·b, c] block as [a, b, c] — a groups of b rows of c entries —, sums each
  row, then each group, and spreads a per-group number back over the group.  Each lemma below reads one such operation at
  an index whose coordinates are explicit: splitting the first axis in two and merging it back only re-number rows (row
  b·i + j is row j of group i); a sum along the last axis at (i, j) is the sum of that row; a sum along the middle axis
  at (i, u) is the sum over the rows of group i; a trailing unit axis added by a cast changes nothing; an [a, 1, 1] column
  spread over [a, b, c] reads, everywhere in group i, the column's entry i.
-/
import Idealize.ShloMosaic.PureOps.Ideal.Laws
import Idealize.ShloMosaic.Lib.ValueIdx
import Idealize.ShloMosaic.Lib.Pipeline.Value

noncomputable section

namespace Cert.GroupOps

open Idealize.ShloMosaic Idealize.ShloMosaic.ValueIdx

/-! ## Re-numbering rows -/

section Layout

variable {α : Type} {m a b c : Nat}

/-- An [m, c] array viewed as [a, b, c] reads, at (i, j, k), row b·i + j at k. -/
theorem split_apply (x : (⟨2, ![m, c]⟩ : Shape).Idx → α) (h : (⟨2, ![m, c]⟩ : Shape).ShapeCasts ⟨3, ![a, b, c]⟩)
    (i : Fin a) (j : Fin b) (k : Fin c) (r : Fin m) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An [a, b, c] array viewed as [m, c] reads, at (r, k) with r = b·i + j, the entry (i, j, k). -/
theorem merge_apply (x : (⟨3, ![a, b, c]⟩ : Shape).Idx → α) (h : (⟨3, ![a, b, c]⟩ : Shape).ShapeCasts ⟨2, ![m, c]⟩)
    (i : Fin a) (j : Fin b) (k : Fin c) (r : Fin m) (hr : r.val = i.val * b + j.val) :
    shapeCast ⟨2, ![m, c]⟩ x h (ix2 r k) = x (ix3 i j k) :=
  shapeCast_apply x h _ _ (by
    rw [Shape.rowMajor_val_two, Shape.rowMajor_val_three]
    show (i.val * b + j.val) * c + k.val = r.val * c + k.val
    rw [hr])

/-- An [a, b] array with a trailing unit axis added reads, at (i, j, u), the entry (i, j). -/
theorem addLast_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a, 1, 1] column spread over [a, b, c] reads, at (i, j, k), the column's entry i. -/
theorem spread_apply (x : (⟨3, ![a, 1, 1]⟩ : Shape).Idx → α) (h : (⟨3, ![a, 1, 1]⟩ : Shape).Broadcasts ⟨3, ![a, b, c]⟩)
    (i : Fin a) (j : Fin b) (k : Fin c) :
    broadcastTo ⟨3, ![a, b, c]⟩ x h (ix3 i j k) = x (ix3 i (0 : Fin 1) (0 : Fin 1)) :=
  broadcastTo_apply x h _ _ (fun ax => by
    match ax with
    | ⟨0, _⟩ =>
      show i.val = if a = 1 then 0 else i.val
      split
      · next h1 => have := i.isLt; omega
      · rfl
    | ⟨1, _⟩ => show 0 = if (1 : Nat) = 1 then 0 else j.val; rw [if_pos rfl]
    | ⟨2, _⟩ => show 0 = if (1 : Nat) = 1 then 0 else k.val; rw [if_pos rfl])

end Layout

/-! ## Sums along the last and the middle axis -/

section Sums

variable {a b c : Nat} {φ : FTy}

/-- The index over (i, j) with last coordinate k. -/
theorem lift_last (h : (⟨3, ![a, b, c]⟩ : Shape).Reduces [2] ⟨2, ![a, b]⟩) (i : Fin a) (j : Fin b) (k : Fin c) :
    h.lift (ix2 i j) k = ix3 i j k :=
  funext fun x => Fin.ext (by
    show h.liftVal (ix2 i j) k.val x = (ix3 i j k x).val
    unfold Shape.Reduces.liftVal
    match x with
    | ⟨0, _⟩ => rfl
    | ⟨1, _⟩ => rfl
    | ⟨2, _⟩ => rfl)

/-- A sum along the last axis, at (i, j): the sum of that row. -/
theorem lastSum_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The index over (i, u) with middle coordinate k. -/
theorem lift_mid (h : (⟨3, ![a, b, c]⟩ : Shape).Reduces [1] ⟨2, ![a, c]⟩) (i : Fin a) (u : Fin c) (k : Fin b) :
    h.lift (ix2 i u) k = ix3 i k u :=
  funext fun x => Fin.ext (by
    show h.liftVal (ix2 i u) k.val x = (ix3 i k u x).val
    unfold Shape.Reduces.liftVal
    match x with
    | ⟨0, _⟩ => rfl
    | ⟨1, _⟩ => rfl
    | ⟨2, _⟩ => rfl)

/-- A sum along the middle axis, at (i, u): the sum over the middle coordinate. -/
theorem midSum_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (u : Fin c) :
    multiReduction .add [1] ⟨2, ![a, c]⟩ src acc h hφ hacc (ix2 i u) = ∑ k : Fin b, src (ix3 i k u) := by
  rw [Ideal.multiReduction_add_single]
  exact Finset.sum_congr rfl fun k _ => congrArg src (lift_mid h i u k)

end Sums

end Cert.GroupOps

end
-- ==== Proof.Step.lean ====
/-
  The two computations of the kernel body, read at one index on the extended reals.

  One accumulation step takes the block x [256, 128] of flattened batch rows, field f of the weight block w
  [128, 39, 128] and the accumulator's row a [256, 1, 128] for that field, and returns a + x · (w at field f)ᵀ:
  at (r, ·, e) the old entry plus the sum over the 128 shared positions l of x (r, l) · w (e, f, l).

  The closing computation takes the batch block x [256, 39, 128] and the two finished accumulators p1, p2 and returns
  x · (1 − g) + (p2 · x) · g, where g at (r, f) is the logistic function of the sum over e of p1 · x.
-/
import proofs.«176921_j9904194585361_1_alg».proof.Proof.Gen.KernelIdeal
import proofs.«176921_j9904194585361_1_alg».proof.Proof.Gen.KernelIdeal.Skeleton
import proofs.«176921_j9904194585361_1_alg».proof.Proof.LibColOps
import proofs.«176921_j9904194585361_1_alg».proof.Proof.LibGroupOps
import Idealize.ShloMosaic.PureOps.Ideal.Laws
import Idealize.ShloMosaic.Lib.ValueIdx
import Idealize.ShloMosaic.Lib.Pipeline.Value

noncomputable section

namespace Cert.Glu.Body

open Cert.KernelIdeal Cert.KernelIdeal.Gen Idealize.ShloMosaic Idealize.ShloMosaic.ValueIdx
open scoped BigOperators

variable {F : FTy → Type} [FloatOps F]

/-- One accumulation step for the field at offsets `off`: the accumulator's row plus the block times that field of the
    weight block, transposed. -/
def rowStep (off : Fin 3 → Nat) (hs : S128x39x128.Slices off S128x1x128)
    (x : Vec F S256x128 .f32) (w : Vec F S128x39x128 .f32) (a : Vec F S256x1x128 .f32) : FVec F S256x1x128 .f32 :=
  shapeCast S256x1x128
    (addf (shapeCast S256x128 a shapeCasts_S256x1x128_S256x128)
      (matmul dot_S256x128_S128x128_S256x128_1_1_0_0_n_n none
        (truncf .bf16 (shapeCast S256x128 x shapeCasts_S256x128_S256x128) bitsLt_bf16_f32)
        (truncf .bf16 (shapeCast S128x128 (extractStridedSlice S128x1x128 off w hs) shapeCasts_S128x1x128_S128x128)
          bitsLt_bf16_f32)
        (constant S256x128 .f32 0x00000000#32)))
    shapeCasts_S256x128_S256x1x128

theorem dot_rowRow : ColOps.IsRowRow dot_S256x128_S128x128_S256x128_1_1_0_0_n_n := ⟨rfl, rfl, rfl, rfl, rfl, rfl⟩

/-- The step at (r, u, e): the old entry plus the sum over the shared positions. -/
theorem rowStep_apply (k : Nat) (hk : k < 39) (hs : S128x39x128.Slices ![0, k, 0] S128x1x128)
    (x : Vec Ideal S256x128 .f32) (w : Vec Ideal S128x39x128 .f32) (a : Vec Ideal S256x1x128 .f32)
    (r : Fin 256) (u : Fin 1) (e : Fin 128) :
    rowStep ![0, k, 0] hs x w a (ix3 r u e)
      = a (ix3 r u e) + ∑ l : Fin 128, x (ix2 r l) * w (ix3 e (⟨k, hk⟩ : Fin 39) l) := by
  have hu : u.val = 0 := by omega
  unfold rowStep
  rw [GroupOps.split_apply _ shapeCasts_S256x128_S256x1x128 r u e r (by rw [hu]; omega), addf_apply,
    GroupOps.merge_apply a shapeCasts_S256x1x128_S256x128 r u e r (by rw [hu]; omega)]
  refine congrArg (a (ix3 r u e) + ·) ((ColOps.matmul_zero_apply dot_rowRow none _ _ r e).trans ?_)
  refine Finset.sum_congr rfl fun l _ => ?_
  rw [truncf_apply, truncf_apply, shapeCast_self,
    GroupOps.merge_apply _ shapeCasts_S128x1x128_S128x128 e (0 : Fin 1) l e (by simp),
    extractStridedSlice_apply ![0, k, 0] w hs (ix3 e (0 : Fin 1) l) (ix3 e (⟨k, hk⟩ : Fin 39) l) (fun ax => by
      match ax with
      | ⟨0, _⟩ => show e.val = 0 + e.val; omega
      | ⟨1, _⟩ => show k = k + 0; omega
      | ⟨2, _⟩ => show l.val = 0 + l.val; omega)]

/-- The closing computation at (r, f, e). -/
theorem closing_apply (x p1 p2 : Vec Ideal S256x39x128 .f32) (r : Fin 256) (f : Fin 39) (e : Fin 128) :
    k0_pay2 (F := Ideal) x p1 p2 (ix3 r f e)
      = x (ix3 r f e) * (Ideal.ofBits .f32 0x3F800000#32 - Ideal.logistic (∑ k : Fin 128, p1 (ix3 r f k) * x (ix3 r f k)))
        + (p2 (ix3 r f e) * x (ix3 r f e)) * Ideal.logistic (∑ k : Fin 128, p1 (ix3 r f k) * x (ix3 r f k)) := by
  have hb : ∀ (v : FVec Ideal S256x39x1 .f32),
      broadcastTo S256x39x128 v broadcasts_S256x39x1_S256x39x128 (ix3 r f e) = v (ix3 r f (0 : Fin 1)) := fun v =>
    broadcastTo_apply v broadcasts_S256x39x1_S256x39x128 _ _ (fun ax => by
      match ax with
      | ⟨0, _⟩ => show r.val = if (256 : Nat) = 1 then 0 else r.val; rw [if_neg (by norm_num)]
      | ⟨1, _⟩ => show f.val = if (39 : Nat) = 1 then 0 else f.val; rw [if_neg (by norm_num)]
      | ⟨2, _⟩ => show 0 = if (1 : Nat) = 1 then 0 else e.val; rw [if_pos rfl])
  have hg : ∀ (q : FVec Ideal S256x39x128 .f32),
      logistic (shapeCast S256x39x1 (multiReduction .add [2] S256x39 q 0x00000000#32 reduces_S256x39x128_S256x39 (.inl rfl) rfl)
        shapeCasts_S256x39_S256x39x1) (ix3 r f (0 : Fin 1)) = Ideal.logistic (∑ k : Fin 128, q (ix3 r f k)) := fun q => by
    show Ideal.logistic _ = _
    rw [GroupOps.addLast_apply _ shapeCasts_S256x39_S256x39x1 r f (0 : Fin 1)]
    exact congrArg Ideal.logistic (GroupOps.lastSum_apply q 0x00000000#32 reduces_S256x39x128_S256x39 (.inl rfl) rfl r f)
  unfold k0_pay2
  simp only [addf_apply, mulf_apply, subf_apply, hb, hg, broadcast_apply]
  rfl

end Cert.Glu.Body

end
-- ==== Proof.Rows.lean ====
/-
  The accumulator [256, 39, 128] written row by row.

  An accumulation pass stores, for each field k = 0, 1, …, 38 in turn, the row (·, k, ·) of the accumulator: the row
  it held before plus the block x times field k of the weight block w.  The rows are disjoint, so after the pass the
  accumulator holds, at (r, f, e), what it held before plus the sum over the 128 shared positions l of
  x (r, l) · w (e, f, l) — and when the pass starts from a buffer just filled with zeros, only that sum.

  The statements below follow the list of stores from the first to the last: an invariant that holds of the stores made
  so far (the rows below k carry the new values; in the zero-filled case the rows from k on still read zero) is carried
  over one more store.
-/
import proofs.«176921_j9904194585361_1_alg».proof.Proof.Step
import Idealize.ShloMosaic.Lib.Pipeline.FrameBody

noncomputable section

namespace Cert.Glu.Rows

open Cert.KernelIdeal Idealize.ShloMosaic Idealize.ShloMosaic.ValueIdx Cert.Glu.Body
open scoped BigOperators

/-- A store into the accumulator: a rectangle and what is written there. -/
abbrev Pc := View.Piece (Elt Ideal) S256x39x128 .f32

/-- What one pass adds at (r, f, e): the block's row r against field f, position e of the weight block. -/
def contrib (x : Vec Ideal S256x128 .f32) (w : Vec Ideal S128x39x128 .f32) (r : Fin 256) (f : Fin 39) (e : Fin 128) : EReal :=
  ∑ l : Fin 128, x (ix2 r l) * w (ix3 e f l)

/-- Row `k` of the accumulator: the rectangle [256, 1, 128] at offsets (0, k, 0). -/
abbrev rowRect (k : Nat) (inb : ∀ a, (![0, k, 0] : Fin 3 → Nat) a + S256x1x128.size a ≤ S256x39x128.size a) :
    Rect S256x39x128 :=
  Rect.unit ![0, k, 0] S256x1x128.size inb

/-- Position (r, ·, e) of row `k` is position (r, k, e) of the accumulator. -/
theorem row_idx (k : Nat) (hk : k < 39) (inb) (r : Fin 256) (u : Fin 1) (e : Fin 128) :
    (rowRect k inb).idx (ix3 r u e) = ix3 r ⟨k, hk⟩ e :=
  funext fun a => Fin.ext (by
    have hu : u.val = 0 := by omega
    match a with
    | ⟨0, _⟩ => show 0 + 1 * r.val = r.val; omega
    | ⟨1, _⟩ => show k + 1 * u.val = k; omega
    | ⟨2, _⟩ => show 0 + 1 * e.val = e.val; omega)

/-- An index lies in row `k` exactly when its field is `k`. -/
theorem mem_row (k : Nat) (inb) (r : Fin 256) (f : Fin 39) (e : Fin 128) :
    ix3 r f e ∈ (rowRect k inb).set ↔ f.val = k := by
  rw [Rect.mem_set_unit]
  constructor
  · intro h
    have h1 := h (1 : Fin 3)
    have h2 : k ≤ f.val ∧ f.val < k + 1 := h1
    omega
  · intro h a
    match a with
    | ⟨0, _⟩ => exact ⟨Nat.zero_le _, by show r.val < 0 + 256; omega⟩
    | ⟨1, _⟩ => exact ⟨by show k ≤ f.val; omega, by show f.val < k + 1; omega⟩
    | ⟨2, _⟩ => exact ⟨Nat.zero_le _, by show e.val < 0 + 128; omega⟩

/-- One more row stored: if the rows below `k` carry `base` plus the pass's contribution, and the row stored now is
    the accumulation step over a row `a` that reads `base` at field `k`, then the rows below `k + 1` do. -/
theorem step_core (k : Nat) (hk : k < 39) (inb) (hs : S128x39x128.Slices ![0, k, 0] S128x1x128)
    (x : Vec Ideal S256x128 .f32) (w : Vec Ideal S128x39x128 .f32) (a : Vec Ideal S256x1x128 .f32)
    (base : S256x39x128.Idx → EReal)
    (ha : ∀ (r : Fin 256) (u : Fin 1) (e : Fin 128), a (ix3 r u e) = base (ix3 r ⟨k, hk⟩ e))
    (L : List Pc)
    (hL : ∀ (r : Fin 256) (f : Fin 39) (e : Fin 128), f.val < k →
      View.canon L (ix3 r f e) = base (ix3 r f e) + contrib x w r f e)
    (r : Fin 256) (f : Fin 39) (e : Fin 128) (hf : f.val < k + 1) :
    View.canon ((⟨rowRect k inb, rowStep ![0, k, 0] hs x w a⟩ : Pc) :: L) (ix3 r f e)
      = base (ix3 r f e) + contrib x w r f e := by
  by_cases h : f.val = k
  · obtain rfl : f = ⟨k, hk⟩ := Fin.ext h
    have hi : (rowRect k inb).emb (ix3 r (0 : Fin 1) e) = (ix3 r (⟨k, hk⟩ : Fin 39) e : S256x39x128.Idx) :=
      row_idx k hk inb r 0 e
    have hc := View.canon_cons_emb (Val := Elt Ideal) (rowRect k inb) (rowStep ![0, k, 0] hs x w a) L (ix3 r (0 : Fin 1) e)
    rw [hi] at hc
    refine hc.trans ((rowStep_apply k hk hs x w a r 0 e).trans ?_)
    rw [ha]
    rfl
  · have hn : (ix3 r f e : S256x39x128.Idx) ∉ (rowRect k inb).set := fun hm => h ((mem_row k inb r f e).mp hm)
    exact (View.canon_cons_of_not_mem (Val := Elt Ideal)
      (⟨rowRect k inb, rowStep ![0, k, 0] hs x w a⟩ : Pc) L (y := ix3 r f e) hn).trans (hL r f e (by omega))

/-! ## A pass over a buffer that keeps what it held -/

/-- The invariant of a pass that adds to what the buffer held (`xs`): the rows below `k` are done. -/
def Added (x : Vec Ideal S256x128 .f32) (w : Vec Ideal S128x39x128 .f32) (xs : S256x39x128.Idx → EReal)
    (k : Nat) (L : List Pc) : Prop :=
  ∀ (r : Fin 256) (f : Fin 39) (e : Fin 128), f.val < k → View.canon L (ix3 r f e) = xs (ix3 r f e) + contrib x w r f e

theorem added_nil (x : Vec Ideal S256x128 .f32) (w : Vec Ideal S128x39x128 .f32) (xs : S256x39x128.Idx → EReal) :
    Added x w xs 0 [] := fun _ f _ hf => absurd hf (Nat.not_lt_zero _)

/-- One more row, its old contents loaded from the buffer as it was before the pass. -/
theorem added_step {sig : RefSig} {κ : Kind} {sp : Space} (k : Nat) (hk : k < 39) (inb)
    (hs : S128x39x128.Slices ![0, k, 0] S128x1x128)
    (x : Vec Ideal S256x128 .f32) (w : Vec Ideal S128x39x128 .f32) (xs : S256x39x128.Idx → EReal)
    (M : Memref sig κ sp S256x39x128 .f32) (hM : M.IsWhole) (L : List Pc) (hL : Added x w xs k L) :
    Added x w xs (k + 1)
      ((⟨rowRect k inb, rowStep ![0, k, 0] hs x w
        (View.readAt (Elt Ideal) M.view (rowRect k inb).toLoadRect (hM.unread xs))⟩ : Pc) :: L) :=
  step_core k hk inb hs x w _ xs (fun r u e => by
    show View.read (Elt Ideal) M.view (hM.unread xs) ((rowRect k inb).idx (ix3 r u e)) = _
    rw [hM.read_unread, row_idx k hk inb r u e]) L hL

/-! ## A pass over a buffer just filled with zeros -/

/-- The invariant of a pass over stores that began with a zero fill: the rows from `k` on still read zero, the rows
    below `k` carry the pass's contribution. -/
def Fresh (x : Vec Ideal S256x128 .f32) (w : Vec Ideal S128x39x128 .f32) (k : Nat) (L : List Pc) : Prop :=
  (∀ (r : Fin 256) (f : Fin 39) (e : Fin 128), k ≤ f.val → View.canon L (ix3 r f e) = 0)
  ∧ ∀ (r : Fin 256) (f : Fin 39) (e : Fin 128), f.val < k → View.canon L (ix3 r f e) = contrib x w r f e

/-- One more row, its old contents read back from the stores made so far. -/
theorem fresh_step {sig : RefSig} {κ : Kind} {sp : Space} (k : Nat) (hk : k < 39) (inb)
    (hs : S128x39x128.Slices ![0, k, 0] S128x1x128)
    (x : Vec Ideal S256x128 .f32) (w : Vec Ideal S128x39x128 .f32)
    (v : View sig κ sp S256x39x128 .f32) (L : List Pc) (hL : Fresh x w k L) :
    Fresh x w (k + 1)
      ((⟨rowRect k inb, rowStep ![0, k, 0] hs x w (v.readCov L (rowRect k inb).toLoadRect)⟩ : Pc) :: L) := by
  refine ⟨fun r f e hf => ?_, fun r f e hf => ?_⟩
  · have hn : (ix3 r f e : S256x39x128.Idx) ∉ (rowRect k inb).set := fun hm => by
      have := (mem_row k inb r f e).mp hm; omega
    exact (View.canon_cons_of_not_mem (Val := Elt Ideal)
      (⟨rowRect k inb, rowStep ![0, k, 0] hs x w (v.readCov L (rowRect k inb).toLoadRect)⟩ : Pc) L (y := ix3 r f e) hn).trans
      (hL.1 r f e (by omega))
  · have h := step_core k hk inb hs x w (v.readCov L (rowRect k inb).toLoadRect) (fun _ => 0) (fun r u e => by
      rw [View.readCov_eq_canon']
      show View.canon L ((rowRect k inb).idx (ix3 r u e)) = 0
      rw [row_idx k hk inb r u e]
      exact hL.1 r ⟨k, hk⟩ e (Nat.le_refl _)) L (fun r f e hf => by rw [hL.2 r f e hf, zero_add]) r f e hf
    rw [h, zero_add]

/-- The zero fill by itself: every row reads zero. -/
theorem fresh_zero (x : Vec Ideal S256x128 .f32) (w : Vec Ideal S128x39x128 .f32)
    (inb : ∀ a, (![0, 0, 0] : Fin 3 → Nat) a + S256x39x128.size a ≤ S256x39x128.size a)
    (z : FVec Ideal S256x39x128 .f32) (hz : ∀ y, z y = 0) :
    Fresh x w 0 [(⟨Rect.unit ![0, 0, 0] S256x39x128.size inb, z⟩ : Pc)] := by
  refine ⟨fun r f e _ => ?_, fun _ f _ hf => absurd hf (Nat.not_lt_zero _)⟩
  have h := View.canon_unit_zero (Val := Elt Ideal) (S := S256x39x128) (e := .f32) (off := ![0, 0, 0])
    (funext fun a => by match a with | ⟨0, _⟩ => rfl | ⟨1, _⟩ => rfl | ⟨2, _⟩ => rfl) inb z
  exact (congrFun h _).trans (hz _)

/-- A whole-buffer load of contents `X` held whole reads `X`. -/
theorem read_whole {sig : RefSig} {κ : Kind} {sp : Space} {S : Shape} {e : EltTy} (M : Memref sig κ sp S e) (hM : M.IsWhole)
    (X : S.Idx → Elt Ideal e) (off : Fin S.rank → Nat) (hoff : off = fun _ => 0) (inb : ∀ a, off a + S.size a ≤ S.size a) :
    View.readAt (Elt Ideal) M.view (Rect.unit off S.size inb).toLoadRect (hM.unread X) = X := by
  show View.ld (View.read (Elt Ideal) M.view (hM.unread X)) (Rect.unit off S.size inb) = X
  rw [hM.read_unread, View.ld_unit_zero hoff]

end Cert.Glu.Rows

end
-- ==== Proof.CaseA.lean ====
/-
  The first point of a row tile's pass: both accumulators are filled with zeros and then updated row by row, each
  row's old contents read back from the zero fill.  After the point each accumulator holds, at (r, f, e), the sum over
  the 128 shared positions l of the point's block x (r, l) against the point's weight block (e, f, l).
-/
import proofs.«176921_j9904194585361_1_alg».proof.Proof.Rows
import proofs.«176921_j9904194585361_1_alg».proof.Proof.Gen.KernelIdeal.Frame

set_option maxRecDepth 16384

noncomputable section

namespace Cert.Glu.CaseA

open Cert.KernelIdeal Cert.KernelIdeal.Gen Idealize.ShloMosaic Idealize.ShloMosaic.ValueIdx Cert.Glu.Rows

/-- The fill stored into the first accumulator is zero everywhere. -/
theorem fill0_zero (y : S256x39x128.Idx) : k0_pay3 (F := Ideal) y = 0 := by
  unfold k0_pay3
  rw [shapeCast_self]
  exact Ideal.ofBits_zero_f32

/-- The fill stored into the second accumulator is zero everywhere. -/
theorem fill1_zero (y : S256x39x128.Idx) : k0_pay4 (F := Ideal) y = 0 := by
  unfold k0_pay4
  rw [shapeCast_self]
  exact Ideal.ofBits_zero_f32

/-- The stores into the first accumulator, followed from the zero fill to the last row. -/
theorem fresh0 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : cond0_0 i) (hc1 : ¬cond0_1 i)
    (x0 : Vec Ideal S256x128 .f32) (x1 : Vec Ideal S256x39x128 .f32) (x2 x3 : Vec Ideal S128x39x128 .f32) :
    Fresh x0 x2 39 (kernelRun0_A (F := Ideal) c i arg2 harg2 arg3 harg3 arg4 harg4 arg5 harg5 arg6 harg6 arg7 harg7 arg8 harg8 hc0 hc1 x0 x1 x2 x3).2.1 := by
  have key : Fresh
      (View.readAt (Elt Ideal) arg2.view (Rect.unit ![0, 0] S256x128.size inb_S256x128_S256x128_0_0).toLoadRect (harg2.unread x0))
      (View.readAt (Elt Ideal) arg4.view (Rect.unit ![0, 0, 0] S128x39x128.size inb_S128x39x128_S128x39x128_0_0_0).toLoadRect (harg4.unread x2))
      39 (kernelRun0_A (F := Ideal) c i arg2 harg2 arg3 harg3 arg4 harg4 arg5 harg5 arg6 harg6 arg7 harg7 arg8 harg8 hc0 hc1 x0 x1 x2 x3).2.1 := by
    unfold kernelRun0_A
    dsimp only
    repeat (first
      | exact fresh_zero _ _ _ _ fill0_zero
      | refine fresh_step _ (by norm_num) _ _ _ _ _ _ ?_)
  rwa [read_whole arg2 harg2 x0 _ (funext fun a => by match a with | ⟨0, _⟩ => rfl | ⟨1, _⟩ => rfl),
    read_whole arg4 harg4 x2 _ (funext fun a => by match a with | ⟨0, _⟩ => rfl | ⟨1, _⟩ => rfl | ⟨2, _⟩ => rfl)] at key

/-- The stores into the second accumulator, followed from the zero fill to the last row. -/
theorem fresh1 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : cond0_0 i) (hc1 : ¬cond0_1 i)
    (x0 : Vec Ideal S256x128 .f32) (x1 : Vec Ideal S256x39x128 .f32) (x2 x3 : Vec Ideal S128x39x128 .f32) :
    Fresh x0 x3 39 (kernelRun0_A (F := Ideal) c i arg2 harg2 arg3 harg3 arg4 harg4 arg5 harg5 arg6 harg6 arg7 harg7 arg8 harg8 hc0 hc1 x0 x1 x2 x3).2.2.1 := by
  have key : Fresh
      (View.readAt (Elt Ideal) arg2.view (Rect.unit ![0, 0] S256x128.size inb_S256x128_S256x128_0_0).toLoadRect (harg2.unread x0))
      (View.readAt (Elt Ideal) arg5.view (Rect.unit ![0, 0, 0] S128x39x128.size inb_S128x39x128_S128x39x128_0_0_0).toLoadRect (harg5.unread x3))
      39 (kernelRun0_A (F := Ideal) c i arg2 harg2 arg3 harg3 arg4 harg4 arg5 harg5 arg6 harg6 arg7 harg7 arg8 harg8 hc0 hc1 x0 x1 x2 x3).2.2.1 := by
    unfold kernelRun0_A
    dsimp only
    repeat (first
      | exact fresh_zero _ _ _ _ fill1_zero
      | refine fresh_step _ (by norm_num) _ _ _ _ _ _ ?_)
  rwa [read_whole arg2 harg2 x0 _ (funext fun a => by match a with | ⟨0, _⟩ => rfl | ⟨1, _⟩ => rfl),
    read_whole arg5 harg5 x3 _ (funext fun a => by match a with | ⟨0, _⟩ => rfl | ⟨1, _⟩ => rfl | ⟨2, _⟩ => rfl)] at key

/-- What the point leaves in accumulator 0, at (r, f, e). -/
theorem sout0_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : cond0_0 i) (hc1 : ¬cond0_1 i)
    (x0 : Vec Ideal S256x128 .f32) (x1 : Vec Ideal S256x39x128 .f32) (x2 x3 : Vec Ideal S128x39x128 .f32) (r : Fin 256) (f : Fin 39) (e : Fin 128) :
    sout0_A_0 (F := Ideal) c i arg2 harg2 arg3 harg3 arg4 harg4 arg5 harg5 arg6 harg6 arg7 harg7 arg8 harg8 hc0 hc1 x0 x1 x2 x3 (ix3 r f e) = contrib x0 x2 r f e := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  exact (fresh0 c i arg2 harg2 arg3 harg3 arg4 harg4 arg5 harg5 arg6 harg6 arg7 harg7 arg8 harg8 hc0 hc1 x0 x1 x2 x3).2 r f e f.isLt

/-- What the point leaves in accumulator 1, at (r, f, e). -/
theorem sout1_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : cond0_0 i) (hc1 : ¬cond0_1 i)
    (x0 : Vec Ideal S256x128 .f32) (x1 : Vec Ideal S256x39x128 .f32) (x2 x3 : Vec Ideal S128x39x128 .f32) (r : Fin 256) (f : Fin 39) (e : Fin 128) :
    sout0_A_1 (F := Ideal) c i arg2 harg2 arg3 harg3 arg4 harg4 arg5 harg5 arg6 harg6 arg7 harg7 arg8 harg8 hc0 hc1 x0 x1 x2 x3 (ix3 r f e) = contrib x0 x3 r f e := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  exact (fresh1 c i arg2 harg2 arg3 harg3 arg4 harg4 arg5 harg5 arg6 harg6 arg7 harg7 arg8 harg8 hc0 hc1 x0 x1 x2 x3).2 r f e f.isLt

end Cert.Glu.CaseA

end
-- ==== Proof.CaseB.lean ====
/-
  A middle point of a row tile's pass (neither its first nor its last point): both accumulators are updated row by
  row from what the point before left, and nothing is written to the output.  After the point each accumulator holds,
  at (r, f, e), what it held plus the sum over the 128 shared positions l of the point's block x (r, l) against the
  point's weight block (e, f, l) — the first accumulator against the first weight array, the second against the second.
-/
import proofs.«176921_j9904194585361_1_alg».proof.Proof.Rows
import proofs.«176921_j9904194585361_1_alg».proof.Proof.Gen.KernelIdeal.Frame

set_option maxRecDepth 16384

noncomputable section

namespace Cert.Glu.CaseB

open Cert.KernelIdeal Cert.KernelIdeal.Gen Idealize.ShloMosaic Idealize.ShloMosaic.ValueIdx Cert.Glu.Rows

/-- The stores into the first accumulator, followed from the first to the last. -/
theorem added0 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : ¬cond0_1 i)
    (x0 : Vec Ideal S256x128 .f32) (x1 : Vec Ideal S256x39x128 .f32) (x2 x3 : Vec Ideal S128x39x128 .f32) (xs0 xs1 : Vec Ideal S256x39x128 .f32) :
    Added x0 x2 xs0 39 (kernelRun0_B (F := Ideal) c i arg2 harg2 arg3 harg3 arg4 harg4 arg5 harg5 arg6 harg6 arg7 harg7 arg8 harg8 hc0 hc1 x0 x1 x2 x3 xs0 xs1).2.1 := by
  have key : Added
      (View.readAt (Elt Ideal) arg2.view (Rect.unit ![0, 0] S256x128.size inb_S256x128_S256x128_0_0).toLoadRect (harg2.unread x0))
      (View.readAt (Elt Ideal) arg4.view (Rect.unit ![0, 0, 0] S128x39x128.size inb_S128x39x128_S128x39x128_0_0_0).toLoadRect (harg4.unread x2))
      xs0 39 (kernelRun0_B (F := Ideal) c i arg2 harg2 arg3 harg3 arg4 harg4 arg5 harg5 arg6 harg6 arg7 harg7 arg8 harg8 hc0 hc1 x0 x1 x2 x3 xs0 xs1).2.1 := by
    unfold kernelRun0_B
    dsimp only
    repeat (first
      | exact added_nil _ _ _
      | refine added_step _ (by norm_num) _ _ _ _ _ _ _ _ ?_)
  rwa [read_whole arg2 harg2 x0 _ (funext fun a => by match a with | ⟨0, _⟩ => rfl | ⟨1, _⟩ => rfl),
    read_whole arg4 harg4 x2 _ (funext fun a => by match a with | ⟨0, _⟩ => rfl | ⟨1, _⟩ => rfl | ⟨2, _⟩ => rfl)] at key

/-- The stores into the second accumulator, followed from the first to the last. -/
theorem added1 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : ¬cond0_1 i)
    (x0 : Vec Ideal S256x128 .f32) (x1 : Vec Ideal S256x39x128 .f32) (x2 x3 : Vec Ideal S128x39x128 .f32) (xs0 xs1 : Vec Ideal S256x39x128 .f32) :
    Added x0 x3 xs1 39 (kernelRun0_B (F := Ideal) c i arg2 harg2 arg3 harg3 arg4 harg4 arg5 harg5 arg6 harg6 arg7 harg7 arg8 harg8 hc0 hc1 x0 x1 x2 x3 xs0 xs1).2.2.1 := by
  have key : Added
      (View.readAt (Elt Ideal) arg2.view (Rect.unit ![0, 0] S256x128.size inb_S256x128_S256x128_0_0).toLoadRect (harg2.unread x0))
      (View.readAt (Elt Ideal) arg5.view (Rect.unit ![0, 0, 0] S128x39x128.size inb_S128x39x128_S128x39x128_0_0_0).toLoadRect (harg5.unread x3))
      xs1 39 (kernelRun0_B (F := Ideal) c i arg2 harg2 arg3 harg3 arg4 harg4 arg5 harg5 arg6 harg6 arg7 harg7 arg8 harg8 hc0 hc1 x0 x1 x2 x3 xs0 xs1).2.2.1 := by
    unfold kernelRun0_B
    dsimp only
    repeat (first
      | exact added_nil _ _ _
      | refine added_step _ (by norm_num) _ _ _ _ _ _ _ _ ?_)
  rwa [read_whole arg2 harg2 x0 _ (funext fun a => by match a with | ⟨0, _⟩ => rfl | ⟨1, _⟩ => rfl),
    read_whole arg5 harg5 x3 _ (funext fun a => by match a with | ⟨0, _⟩ => rfl | ⟨1, _⟩ => rfl | ⟨2, _⟩ => rfl)] at key

/-- What the point leaves in accumulator 0, at (r, f, e). -/
theorem sout0_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : ¬cond0_1 i)
    (x0 : Vec Ideal S256x128 .f32) (x1 : Vec Ideal S256x39x128 .f32) (x2 x3 : Vec Ideal S128x39x128 .f32) (xs0 xs1 : Vec Ideal S256x39x128 .f32) (r : Fin 256) (f : Fin 39) (e : Fin 128) :
    sout0_B_0 (F := Ideal) c i arg2 harg2 arg3 harg3 arg4 harg4 arg5 harg5 arg6 harg6 arg7 harg7 arg8 harg8 hc0 hc1 x0 x1 x2 x3 xs0 xs1 (ix3 r f e)
      = xs0 (ix3 r f e) + contrib x0 x2 r f e := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  exact added0 c i arg2 harg2 arg3 harg3 arg4 harg4 arg5 harg5 arg6 harg6 arg7 harg7 arg8 harg8 hc0 hc1 x0 x1 x2 x3 xs0 xs1 r f e f.isLt

/-- What the point leaves in accumulator 1, at (r, f, e). -/
theorem sout1_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : ¬cond0_1 i)
    (x0 : Vec Ideal S256x128 .f32) (x1 : Vec Ideal S256x39x128 .f32) (x2 x3 : Vec Ideal S128x39x128 .f32) (xs0 xs1 : Vec Ideal S256x39x128 .f32) (r : Fin 256) (f : Fin 39) (e : Fin 128) :
    sout0_B_1 (F := Ideal) c i arg2 harg2 arg3 harg3 arg4 harg4 arg5 harg5 arg6 harg6 arg7 harg7 arg8 harg8 hc0 hc1 x0 x1 x2 x3 xs0 xs1 (ix3 r f e)
      = xs1 (ix3 r f e) + contrib x0 x3 r f e := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  exact added1 c i arg2 harg2 arg3 harg3 arg4 harg4 arg5 harg5 arg6 harg6 arg7 harg7 arg8 harg8 hc0 hc1 x0 x1 x2 x3 xs0 xs1 r f e f.isLt

end Cert.Glu.CaseB

end
-- ==== Proof.CaseC.lean ====
/-
  The last point of a row tile's pass: both accumulators receive their last update, and the output block is computed
  from the batch block x and the finished accumulators p1, p2: x · (1 − g) + (p2 · x) · g, with g at (r, f) the logistic
  function of the sum over e of p1 · x.
-/
import proofs.«176921_j9904194585361_1_alg».proof.Proof.Rows
import proofs.«176921_j9904194585361_1_alg».proof.Proof.Gen.KernelIdeal.Frame

set_option maxRecDepth 16384

noncomputable section

namespace Cert.Glu.CaseC

open Cert.KernelIdeal Cert.KernelIdeal.Gen Idealize.ShloMosaic Idealize.ShloMosaic.ValueIdx Cert.Glu.Rows Cert.Glu.Body
open scoped BigOperators

/-- The stores into the first accumulator, followed from the first to the last. -/
theorem added0 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : cond0_1 i)
    (x0 : Vec Ideal S256x128 .f32) (x1 : Vec Ideal S256x39x128 .f32) (x2 x3 : Vec Ideal S128x39x128 .f32) (xs0 xs1 : Vec Ideal S256x39x128 .f32) :
    Added x0 x2 xs0 39 (kernelRun0_C (F := Ideal) c i arg2 harg2 arg3 harg3 arg4 harg4 arg5 harg5 arg6 harg6 arg7 harg7 arg8 harg8 hc0 hc1 x0 x1 x2 x3 xs0 xs1).2.1 := by
  have key : Added
      (View.readAt (Elt Ideal) arg2.view (Rect.unit ![0, 0] S256x128.size inb_S256x128_S256x128_0_0).toLoadRect (harg2.unread x0))
      (View.readAt (Elt Ideal) arg4.view (Rect.unit ![0, 0, 0] S128x39x128.size inb_S128x39x128_S128x39x128_0_0_0).toLoadRect (harg4.unread x2))
      xs0 39 (kernelRun0_C (F := Ideal) c i arg2 harg2 arg3 harg3 arg4 harg4 arg5 harg5 arg6 harg6 arg7 harg7 arg8 harg8 hc0 hc1 x0 x1 x2 x3 xs0 xs1).2.1 := by
    unfold kernelRun0_C
    dsimp only
    repeat (first
      | exact added_nil _ _ _
      | refine added_step _ (by norm_num) _ _ _ _ _ _ _ _ ?_)
  rwa [read_whole arg2 harg2 x0 _ (funext fun a => by match a with | ⟨0, _⟩ => rfl | ⟨1, _⟩ => rfl),
    read_whole arg4 harg4 x2 _ (funext fun a => by match a with | ⟨0, _⟩ => rfl | ⟨1, _⟩ => rfl | ⟨2, _⟩ => rfl)] at key

/-- The stores into the second accumulator, followed from the first to the last. -/
theorem added1 (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : cond0_1 i)
    (x0 : Vec Ideal S256x128 .f32) (x1 : Vec Ideal S256x39x128 .f32) (x2 x3 : Vec Ideal S128x39x128 .f32) (xs0 xs1 : Vec Ideal S256x39x128 .f32) :
    Added x0 x3 xs1 39 (kernelRun0_C (F := Ideal) c i arg2 harg2 arg3 harg3 arg4 harg4 arg5 harg5 arg6 harg6 arg7 harg7 arg8 harg8 hc0 hc1 x0 x1 x2 x3 xs0 xs1).2.2.1 := by
  have key : Added
      (View.readAt (Elt Ideal) arg2.view (Rect.unit ![0, 0] S256x128.size inb_S256x128_S256x128_0_0).toLoadRect (harg2.unread x0))
      (View.readAt (Elt Ideal) arg5.view (Rect.unit ![0, 0, 0] S128x39x128.size inb_S128x39x128_S128x39x128_0_0_0).toLoadRect (harg5.unread x3))
      xs1 39 (kernelRun0_C (F := Ideal) c i arg2 harg2 arg3 harg3 arg4 harg4 arg5 harg5 arg6 harg6 arg7 harg7 arg8 harg8 hc0 hc1 x0 x1 x2 x3 xs0 xs1).2.2.1 := by
    unfold kernelRun0_C
    dsimp only
    repeat (first
      | exact added_nil _ _ _
      | refine added_step _ (by norm_num) _ _ _ _ _ _ _ _ ?_)
  rwa [read_whole arg2 harg2 x0 _ (funext fun a => by match a with | ⟨0, _⟩ => rfl | ⟨1, _⟩ => rfl),
    read_whole arg5 harg5 x3 _ (funext fun a => by match a with | ⟨0, _⟩ => rfl | ⟨1, _⟩ => rfl | ⟨2, _⟩ => rfl)] at key

/-- What the point leaves in accumulator 0, at (r, f, e). -/
theorem sout0_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : cond0_1 i)
    (x0 : Vec Ideal S256x128 .f32) (x1 : Vec Ideal S256x39x128 .f32) (x2 x3 : Vec Ideal S128x39x128 .f32) (xs0 xs1 : Vec Ideal S256x39x128 .f32) (r : Fin 256) (f : Fin 39) (e : Fin 128) :
    sout0_C_0 (F := Ideal) c i arg2 harg2 arg3 harg3 arg4 harg4 arg5 harg5 arg6 harg6 arg7 harg7 arg8 harg8 hc0 hc1 x0 x1 x2 x3 xs0 xs1 (ix3 r f e)
      = xs0 (ix3 r f e) + contrib x0 x2 r f e := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  exact added0 c i arg2 harg2 arg3 harg3 arg4 harg4 arg5 harg5 arg6 harg6 arg7 harg7 arg8 harg8 hc0 hc1 x0 x1 x2 x3 xs0 xs1 r f e f.isLt

/-- What the point leaves in accumulator 1, at (r, f, e). -/
theorem sout1_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : cond0_1 i)
    (x0 : Vec Ideal S256x128 .f32) (x1 : Vec Ideal S256x39x128 .f32) (x2 x3 : Vec Ideal S128x39x128 .f32) (xs0 xs1 : Vec Ideal S256x39x128 .f32) (r : Fin 256) (f : Fin 39) (e : Fin 128) :
    sout0_C_1 (F := Ideal) c i arg2 harg2 arg3 harg3 arg4 harg4 arg5 harg5 arg6 harg6 arg7 harg7 arg8 harg8 hc0 hc1 x0 x1 x2 x3 xs0 xs1 (ix3 r f e)
      = xs1 (ix3 r f e) + contrib x0 x3 r f e := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  exact added1 c i arg2 harg2 arg3 harg3 arg4 harg4 arg5 harg5 arg6 harg6 arg7 harg7 arg8 harg8 hc0 hc1 x0 x1 x2 x3 xs0 xs1 r f e f.isLt

/-- A load of the whole accumulator after a finished pass reads, at (r, f, e), what the pass left there. -/
theorem whole_idx (inb : ∀ a, (![0, 0, 0] : Fin 3 → Nat) a + S256x39x128.size a ≤ S256x39x128.size a)
    (r : Fin 256) (f : Fin 39) (e : Fin 128) :
    (Rect.unit (s := S256x39x128) ![0, 0, 0] S256x39x128.size inb).idx (ix3 r f e) = ix3 r f e :=
  funext fun a => Fin.ext (by
    match a with
    | ⟨0, _⟩ => show 0 + 1 * r.val = r.val; omega
    | ⟨1, _⟩ => show 0 + 1 * f.val = f.val; omega
    | ⟨2, _⟩ => show 0 + 1 * e.val = e.val; omega)

/-- The one store into the output block: the closing computation over the batch block and the two accumulators read
    back whole after their passes. -/
theorem closing_piece {sig₀ sig₁ : RefSig} {κ₀ κ₁ : Kind} {sp₀ sp₁ : Space}
    (inb : ∀ a, (![0, 0, 0] : Fin 3 → Nat) a + S256x39x128.size a ≤ S256x39x128.size a)
    (x0 : Vec Ideal S256x128 .f32) (x1' x1 : Vec Ideal S256x39x128 .f32) (x2 x3 : Vec Ideal S128x39x128 .f32)
    (xs0 xs1 : Vec Ideal S256x39x128 .f32) (hx : x1' = x1)
    (v0 : View sig₀ κ₀ sp₀ S256x39x128 .f32) (v1 : View sig₁ κ₁ sp₁ S256x39x128 .f32) (L0 L1 : List Pc)
    (h0 : Added x0 x2 xs0 39 L0) (h1 : Added x0 x3 xs1 39 L1) (r : Fin 256) (f : Fin 39) (e : Fin 128) :
    View.canon [(⟨Rect.unit ![0, 0, 0] S256x39x128.size inb,
        k0_pay2 (F := Ideal) x1' (v0.readCov L0 (Rect.unit ![0, 0, 0] S256x39x128.size inb).toLoadRect)
          (v1.readCov L1 (Rect.unit ![0, 0, 0] S256x39x128.size inb).toLoadRect)⟩ : Pc)] (ix3 r f e)
      = x1 (ix3 r f e) * (Ideal.ofBits .f32 0x3F800000#32 - Ideal.logistic (∑ k : Fin 128, (xs0 (ix3 r f k) + contrib x0 x2 r f k) * x1 (ix3 r f k)))
        + ((xs1 (ix3 r f e) + contrib x0 x3 r f e) * x1 (ix3 r f e)) * Ideal.logistic (∑ k : Fin 128, (xs0 (ix3 r f k) + contrib x0 x2 r f k) * x1 (ix3 r f k)) := by
  subst hx
  have hc := View.canon_unit_zero (Val := Elt Ideal) (S := S256x39x128) (e := .f32) (off := ![0, 0, 0])
    (funext fun a => by match a with | ⟨0, _⟩ => rfl | ⟨1, _⟩ => rfl | ⟨2, _⟩ => rfl) inb
    (k0_pay2 (F := Ideal) x1' (v0.readCov L0 (Rect.unit ![0, 0, 0] S256x39x128.size inb).toLoadRect)
      (v1.readCov L1 (Rect.unit ![0, 0, 0] S256x39x128.size inb).toLoadRect))
  refine (congrFun hc _).trans ((closing_apply x1' _ _ r f e).trans ?_)
  have e0 : ∀ k : Fin 128, v0.readCov L0 (Rect.unit ![0, 0, 0] S256x39x128.size inb).toLoadRect (ix3 r f k)
      = xs0 (ix3 r f k) + contrib x0 x2 r f k := fun k => by
    rw [View.readCov_eq_canon']
    show View.canon L0 ((Rect.unit (s := S256x39x128) ![0, 0, 0] S256x39x128.size inb).idx (ix3 r f k)) = _
    rw [whole_idx inb r f k]
    exact h0 r f k f.isLt
  have e1 : v1.readCov L1 (Rect.unit ![0, 0, 0] S256x39x128.size inb).toLoadRect (ix3 r f e)
      = xs1 (ix3 r f e) + contrib x0 x3 r f e := by
    rw [View.readCov_eq_canon']
    show View.canon L1 ((Rect.unit (s := S256x39x128) ![0, 0, 0] S256x39x128.size inb).idx (ix3 r f e)) = _
    rw [whole_idx inb r f e]
    exact h1 r f e f.isLt
  rw [e1]
  simp only [e0]

/-- What the point writes to the output block, at (r, f, e). -/
theorem out_apply (c : Dev nD) (i : grid0.Coords) (arg2 : Memref sig .tc .vmem S256x128 .f32) (harg2 : arg2.IsWhole) (arg3 : Memref sig .tc .vmem S256x39x128 .f32) (harg3 : arg3.IsWhole) (arg4 : Memref sig .tc .vmem S128x39x128 .f32) (harg4 : arg4.IsWhole) (arg5 : Memref sig .tc .vmem S128x39x128 .f32) (harg5 : arg5.IsWhole) (arg6 : Memref sig .tc .vmem S256x39x128 .f32) (harg6 : arg6.IsWhole) (arg7 : Memref sig .tc .vmem S256x39x128 .f32) (harg7 : arg7.IsWhole) (arg8 : Memref sig .tc .vmem S256x39x128 .f32) (harg8 : arg8.IsWhole) (hc0 : ¬cond0_0 i) (hc1 : cond0_1 i)
    (x0 : Vec Ideal S256x128 .f32) (x1 : Vec Ideal S256x39x128 .f32) (x2 x3 : Vec Ideal S128x39x128 .f32) (xs0 xs1 : Vec Ideal S256x39x128 .f32) (r : Fin 256) (f : Fin 39) (e : Fin 128) :
    out0_C_4 (F := Ideal) c i arg2 harg2 arg3 harg3 arg4 harg4 arg5 harg5 arg6 harg6 arg7 harg7 arg8 harg8 hc0 hc1 x0 x1 x2 x3 xs0 xs1 (ix3 r f e)
      = x1 (ix3 r f e) * (Ideal.ofBits .f32 0x3F800000#32 - Ideal.logistic (∑ k : Fin 128, (xs0 (ix3 r f k) + contrib x0 x2 r f k) * x1 (ix3 r f k)))
        + ((xs1 (ix3 r f e) + contrib x0 x3 r f e) * x1 (ix3 r f e)) * Ideal.logistic (∑ k : Fin 128, (xs0 (ix3 r f k) + contrib x0 x2 r f k) * x1 (ix3 r f k)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  have h0 := added0 c i arg2 harg2 arg3 harg3 arg4 harg4 arg5 harg5 arg6 harg6 arg7 harg7 arg8 harg8 hc0 hc1 x0 x1 x2 x3 xs0 xs1
  have h1 := added1 c i arg2 harg2 arg3 harg3 arg4 harg4 arg5 harg5 arg6 harg6 arg7 harg7 arg8 harg8 hc0 hc1 x0 x1 x2 x3 xs0 xs1
  revert h0 h1
  unfold kernelRun0_C
  dsimp only
  intro h0 h1
  exact closing_piece _ x0 _ x1 x2 x3 xs0 xs1
    (read_whole arg3 harg3 x1 _ (funext fun a => by match a with | ⟨0, _⟩ => rfl | ⟨1, _⟩ => rfl | ⟨2, _⟩ => rfl) _) _ _ _ _ h0 h1 r f e

end Cert.Glu.CaseC

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.Spec.lean ====
/-
  The gated unit as one function of its three argument arrays, on the extended reals.

  X is the batch [2048, 39, 128] (row b, field f, position e); K1 and K2 are the two weight arrays [128, 39, 4992]
  (position e, field f, flat input d).  Row b of the batch, flattened, has 4992 = 39 · 128 entries, entry d being
  X at field d / 128, position d % 128.  The projection of row b on (f, e) through a weight array K is the sum over
  d of that entry times K (e, f, d).  The gate of (b, f) is the logistic function of the sum over e of the first
  projection times X; the result at (b, f, e) is X · (1 − gate) + (second projection · X) · gate.

  The flat sum is also taken tile by tile: 39 tiles of 128 entries, tile k of row b against tile k of K.
-/
import Idealize.ShloMosaic.PureOps.Ideal
import Idealize.ShloMosaic.PureOps.Ideal.Laws
import Idealize.ShloMosaic.Lib.ValueIdx
import proofs.«176921_j9904194585361_1_alg».proof.Proof.LibTiledSum

noncomputable section

namespace Cert.Glu

open Idealize.ShloMosaic Idealize.ShloMosaic.ValueIdx
open scoped BigOperators

abbrev SX : Shape := ⟨3, ![2048, 39, 128]⟩
abbrev SK : Shape := ⟨3, ![128, 39, 4992]⟩

/-- Entry `d` of row `b` of the batch flattened to [2048, 4992]: field `d / 128`, position `d % 128`. -/
def flat (X : SX.Idx → EReal) (b : Fin 2048) (d : Fin 4992) : EReal :=
  X (ix3 b ⟨d.val / 128, by have := d.isLt; omega⟩ ⟨d.val % 128, Nat.mod_lt _ (by norm_num)⟩)

/-- The projection of row `b` on field `f`, position `e`, through the weight array `K`. -/
def proj (X : SX.Idx → EReal) (K : SK.Idx → EReal) (b : Fin 2048) (f : Fin 39) (e : Fin 128) : EReal :=
  ∑ d : Fin 4992, flat X b d * K (ix3 e f d)

/-- The gate of row `b`, field `f`. -/
def gate (X : SX.Idx → EReal) (K1 : SK.Idx → EReal) (b : Fin 2048) (f : Fin 39) : EReal :=
  Ideal.logistic (∑ e : Fin 128, proj X K1 b f e * X (ix3 b f e))

/-- The gated unit's result. -/
def G (X : SX.Idx → EReal) (K1 K2 : SK.Idx → EReal) (i : SX.Idx) : EReal :=
  X i * (1 - gate X K1 (i 0) (i 1)) + (proj X K2 (i 0) (i 1) (i 2) * X i) * gate X K1 (i 0) (i 1)

theorem G_ix3 (X : SX.Idx → EReal) (K1 K2 : SK.Idx → EReal) (b : Fin 2048) (f : Fin 39) (e : Fin 128) :
    G X K1 K2 (ix3 b f e)
      = X (ix3 b f e) * (1 - gate X K1 b f) + (proj X K2 b f e * X (ix3 b f e)) * gate X K1 b f := rfl

/-- The f32 word of 1.0 is the extended real 1. -/
theorem one_word : Ideal.ofBits .f32 0x3F800000#32 = 1 := by
  simp [Ideal.ofBits, Ideal.ieee, -EReal.coe_mul]; norm_num

/-- Tile `k` of the projection: the 128 entries `128 · k + l` of the flat sum (zero past the last tile). -/
def tilePart (X : SX.Idx → EReal) (K : SK.Idx → EReal) (b : Fin 2048) (f : Fin 39) (e : Fin 128) (k : Nat) : EReal :=
  if h : k < 39 then
    ∑ l : Fin 128, flat X b (TiledSum.tile (T := 39) (n := 128) (N := 4992) rfl ⟨k, h⟩ l)
      * K (ix3 e f (TiledSum.tile (T := 39) (n := 128) (N := 4992) rfl ⟨k, h⟩ l))
  else 0

/-- The projection is the sum of its 39 tiles. -/
theorem proj_eq_tiles (X : SX.Idx → EReal) (K : SK.Idx → EReal) (b : Fin 2048) (f : Fin 39) (e : Fin 128) :
    proj X K b f e = ∑ k ∈ Finset.range 39, tilePart X K b f e k := by
  unfold proj
  rw [TiledSum.sum_tiles (T := 39) (n := 128) (N := 4992) rfl, ← TiledSum.sum_fin_eq_range 39]
  refine Finset.sum_congr rfl fun k _ => ?_
  unfold tilePart
  rw [dif_pos k.isLt]

end Cert.Glu

end
-- ==== Proof.Blocks.lean ====
/-
  The idealized kernel's input blocks and its output array, read off its grid of 8 x 39 points.

  Point t has coordinates (t / 39, t % 39).  Its block of the flattened batch [2048, 4992] is rows
  256 (t / 39) .. + 255, columns 128 (t % 39) .. + 127; its block of the batch [2048, 39, 128] is the same rows, whole;
  its blocks of the two weight arrays [128, 39, 4992] are columns 128 (t % 39) .. + 127 of the last axis, whole on the
  other two.  The flattened batch is the batch reshaped: entry (B, D) is the batch at (B, D / 128, D % 128).
  The output [2048, 39, 128] is written back in blocks of 256 rows at the last point of each row of the grid
  (t % 39 = 38); those eight blocks tile it, so it ends holding whatever function of the index those points write.
-/
import proofs.«176921_j9904194585361_1_alg».proof.Proof.Gen.KernelIdeal.Value
import proofs.«176921_j9904194585361_1_alg».proof.Proof.Spec

noncomputable section

namespace Cert.Glu.Blocks

open Cert.KernelIdeal Cert.KernelIdeal.Gen Idealize.ShloMosaic Idealize.ShloMosaic.TcCoe Idealize.SL.Sem Idealize.ShloMosaic.ValueIdx
open Idealize.ShloMosaic.Pipeline (Dat)

/-! ## The block indices at a point, decided over the grid -/

/-- The flattened batch's block at point `t` is block (t / 39, t % 39). -/
theorem idx0 : ∀ t : Fin cfg0.N, win0_0.index t (0 : Fin 2) = t.val / 39 ∧ win0_0.index t (1 : Fin 2) = t.val % 39 :=
  (by decide +kernel : ∀ t : Fin grid0.N, _)

/-- The batch's block at point `t` is block (t / 39, 0, 0). -/
theorem idx1 : ∀ t : Fin cfg0.N, win0_1.index t (0 : Fin 3) = t.val / 39 ∧ win0_1.index t (1 : Fin 3) = 0 ∧ win0_1.index t (2 : Fin 3) = 0 :=
  (by decide +kernel : ∀ t : Fin grid0.N, _)

/-- The first weight array's block at point `t` is block (0, 0, t % 39). -/
theorem idx2 : ∀ t : Fin cfg0.N, win0_2.index t (0 : Fin 3) = 0 ∧ win0_2.index t (1 : Fin 3) = 0 ∧ win0_2.index t (2 : Fin 3) = t.val % 39 :=
  (by decide +kernel : ∀ t : Fin grid0.N, _)

/-- The second weight array's block at point `t` is block (0, 0, t % 39). -/
theorem idx3 : ∀ t : Fin cfg0.N, win0_3.index t (0 : Fin 3) = 0 ∧ win0_3.index t (1 : Fin 3) = 0 ∧ win0_3.index t (2 : Fin 3) = t.val % 39 :=
  (by decide +kernel : ∀ t : Fin grid0.N, _)

/-- The output's block at point `t` is block (t / 39, 0, 0). -/
theorem idx4 : ∀ t : Fin cfg0.N, win0_4.index t (0 : Fin 3) = t.val / 39 ∧ win0_4.index t (1 : Fin 3) = 0 ∧ win0_4.index t (2 : Fin 3) = 0 :=
  (by decide +kernel : ∀ t : Fin grid0.N, _)

/-! ## Rows and columns of a point's blocks -/

/-- Row `r` of point `t`'s blocks of the batch is row 256 (t / 39) + r of the batch. -/
def rowIx (t : Fin cfg0.N) (r : Fin 256) : Fin 2048 :=
  ⟨256 * (t.val / 39) + r.val, by
    have h : t.val < 312 := lt_of_lt_of_eq t.isLt (show cfg0.N = 312 from N_0)
    have := r.isLt; omega⟩

/-- Column `l` of point `t`'s blocks along the flat axis is column 128 (t % 39) + l. -/
def colIx (t : Fin cfg0.N) (l : Fin 128) : Fin 4992 :=
  ⟨128 * (t.val % 39) + l.val, by have := l.isLt; omega⟩

theorem rowIx_val (t : Fin cfg0.N) (r : Fin 256) : (rowIx t r).val = 256 * (t.val / 39) + r.val := rfl
theorem colIx_val (t : Fin cfg0.N) (l : Fin 128) : (colIx t l).val = 128 * (t.val % 39) + l.val := rfl

variable (m : (ℓ : Loc nD τ sig) → Buf (Elt Ideal) ℓ) (c : Dev nD) (t : Fin cfg0.N)

/-! ## The input blocks -/

/-- When the region is entered the flat buffer holds the batch reshaped to [2048, 4992]. -/
theorem V_flat : (V m c main_v0 : S2048x4992.Idx → EReal)
    = shapeCast S2048x4992 (m ((c : Thread nD τ).loc main_arg0)) shapeCasts_S2048x39x128_S2048x4992 := by
  dsimp only [Gen.V, Gen.hostOps0]; after_results; rfl

/-- Point `t`'s block of the flattened batch: entry (r, l) is the flat entry (row, column) of the batch. -/
theorem blk0 (r : Fin 256) (l : Fin 128) :
    (iblk m c 0 t : S256x128.Idx → EReal) (ix2 r l)
      = Cert.Glu.flat (m ((c : Thread nD τ).loc main_arg0)) (rowIx t r) (colIx t l) := by
  obtain ⟨e0, e1⟩ := idx0 t
  unfold iblk
  rw [View.read_apply]
  show V m c main_v0 _ = _
  refine (congrFun (V_flat m c) _).trans ?_
  unfold Cert.Glu.flat
  refine shapeCast_apply _ _ _ _ ?_
  refine (Shape.rowMajor_val_three (d := ![2048, 39, 128]) _).trans
    (Eq.trans ?_ (Shape.rowMajor_val_two (d := ![2048, 4992]) _).symm)
  have hr := r.isLt
  have hl := l.isLt
  show ((256 * (t.val / 39) + r.val) * 39 + (128 * (t.val % 39) + l.val) / 128) * 128 + (128 * (t.val % 39) + l.val) % 128
      = (win0_0.index t (0 : Fin 2) * 256 + 1 * r.val) * 4992 + (win0_0.index t (1 : Fin 2) * 128 + 1 * l.val)
  rw [e0, e1]
  omega

/-- Point `t`'s block of the batch: its 256 rows, whole on the other two axes. -/
theorem blk1 (r : Fin 256) (f : Fin 39) (e : Fin 128) :
    (iblk m c 1 t : S256x39x128.Idx → EReal) (ix3 r f e)
      = m ((c : Thread nD τ).loc main_arg0) (ix3 (rowIx t r) f e) := by
  obtain ⟨e0, e1, e2⟩ := idx1 t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 3) * 256 + 1 * r.val = 256 * (t.val / 39) + r.val; rw [e0]; omega
  | ⟨1, _⟩ => show win0_1.index t (1 : Fin 3) * 39 + 1 * f.val = f.val; rw [e1]; omega
  | ⟨2, _⟩ => show win0_1.index t (2 : Fin 3) * 128 + 1 * e.val = e.val; rw [e2]; omega

/-- Point `t`'s block of the first weight array: its 128 columns of the flat axis, whole on the other two axes. -/
theorem blk2 (e : Fin 128) (f : Fin 39) (l : Fin 128) :
    (iblk m c 2 t : S128x39x128.Idx → EReal) (ix3 e f l)
      = m ((c : Thread nD τ).loc main_arg1) (ix3 e f (colIx t l)) := by
  obtain ⟨e0, e1, e2⟩ := idx2 t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t (0 : Fin 3) * 128 + 1 * e.val = e.val; rw [e0]; omega
  | ⟨1, _⟩ => show win0_2.index t (1 : Fin 3) * 39 + 1 * f.val = f.val; rw [e1]; omega
  | ⟨2, _⟩ => show win0_2.index t (2 : Fin 3) * 128 + 1 * l.val = 128 * (t.val % 39) + l.val; rw [e2]; omega

/-- Point `t`'s block of the second weight array: its 128 columns of the flat axis, whole on the other two axes. -/
theorem blk3 (e : Fin 128) (f : Fin 39) (l : Fin 128) :
    (iblk m c 3 t : S128x39x128.Idx → EReal) (ix3 e f l)
      = m ((c : Thread nD τ).loc main_arg2) (ix3 e f (colIx t l)) := by
  obtain ⟨e0, e1, e2⟩ := idx3 t
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t (0 : Fin 3) * 128 + 1 * e.val = e.val; rw [e0]; omega
  | ⟨1, _⟩ => show win0_3.index t (1 : Fin 3) * 39 + 1 * f.val = f.val; rw [e1]; omega
  | ⟨2, _⟩ => show win0_3.index t (2 : Fin 3) * 128 + 1 * l.val = 128 * (t.val % 39) + l.val; rw [e2]; omega

/-! ## The output array -/

/-- An index of the output array is in point `t`'s block iff each coordinate is in the block's range on its axis. -/
theorem mem_blk4 (i : S2048x39x128.Idx) :
    i ∈ ((cfg0.win 4).blk t).view.set
      ↔ ∀ a : Fin 3, win0_4.index t a * S256x39x128.size a ≤ (i a).val ∧ (i a).val < win0_4.index t a * S256x39x128.size a + S256x39x128.size a := by
  show i ∈ ((View.whole main_v1).slice (win0_4.rect t)).set ↔ _
  rw [View.set_slice_whole, Rect.mem_set_unit]
  exact Iff.rfl

/-- The output array after the run is any function `Gf` of the index that every writing point (t % 39 = 38) writes on its
    256 rows: those points' blocks tile the array, row R lying in the block of point 39 (R / 256) + 38. -/
theorem final_of_flush (Gf : S2048x39x128.Idx → EReal)
    (h : ∀ t : Fin cfg0.N, t.val % 39 = 38 → ∀ (r : Fin 256) (f : Fin 39) (e : Fin 128),
      (outsAt0 m c t.val t.isLt).1 (ix3 r f e) = Gf (ix3 (rowIx t r) f e)) :
    (dats m 0 c).arrAt 4 cfg0.N = Gf := by
  refine (dats m 0 c).arrAt_eq_of_cover 4 Gf (fun t hf => ?_) (fun i => ?_)
  · have ht : t.val % 39 = 38 := (flush0_4 t).mp hf
    obtain ⟨e0, e1, e2⟩ := idx4 t
    rw [Value.flushed4]
    funext y
    rw [View.read_apply]
    have hx : ((cfg0.win 4).xinj (grid0.coords t) y : S256x39x128.Idx)
        = ix3 (⟨(y 0).val, (y 0).isLt⟩ : Fin 256) (⟨(y 1).val, (y 1).isLt⟩ : Fin 39) (⟨(y 2).val, (y 2).isLt⟩ : Fin 128) :=
      funext fun a => Fin.ext (by match a with | ⟨0, _⟩ => rfl | ⟨1, _⟩ => rfl | ⟨2, _⟩ => rfl)
    have hemb : (((cfg0.win 4).blk t).view.emb y : S2048x39x128.Idx)
        = ix3 (rowIx t ⟨(y 0).val, (y 0).isLt⟩) (⟨(y 1).val, (y 1).isLt⟩ : Fin 39) (⟨(y 2).val, (y 2).isLt⟩ : Fin 128) :=
      funext fun a => Fin.ext (by
        match a with
        | ⟨0, _⟩ => show win0_4.index t (0 : Fin 3) * 256 + 1 * (y 0).val = 256 * (t.val / 39) + (y 0).val; rw [e0]; omega
        | ⟨1, _⟩ => show win0_4.index t (1 : Fin 3) * 39 + 1 * (y 1).val = (y 1).val; rw [e1]; omega
        | ⟨2, _⟩ => show win0_4.index t (2 : Fin 3) * 128 + 1 * (y 2).val = (y 2).val; rw [e2]; omega)
    exact (congrArg (outsAt0 m c t.val t.isLt).1 hx).trans ((h t ht _ _ _).trans (congrArg Gf hemb.symm))
  · have hi0 : (i 0).val < 2048 := (i 0).isLt
    have hi1 : (i 1).val < 39 := (i 1).isLt
    have hi2 : (i 2).val < 128 := (i 2).isLt
    let t : Fin cfg0.N := ⟨39 * ((i 0).val / 256) + 38, lt_of_lt_of_eq (by omega : 39 * ((i 0).val / 256) + 38 < 312) N_0.symm⟩
    have htv : t.val = 39 * ((i 0).val / 256) + 38 := rfl
    obtain ⟨e0, e1, e2⟩ := idx4 t
    refine ⟨t, (flush0_4 t).mpr (by rw [htv]; omega), ?_⟩
    rw [mem_blk4]
    intro a
    match a with
    | ⟨0, _⟩ => show win0_4.index t (0 : Fin 3) * 256 ≤ (i 0).val ∧ (i 0).val < win0_4.index t (0 : Fin 3) * 256 + 256; rw [e0, htv]; omega
    | ⟨1, _⟩ => show win0_4.index t (1 : Fin 3) * 39 ≤ (i 1).val ∧ (i 1).val < win0_4.index t (1 : Fin 3) * 39 + 39; rw [e1]; omega
    | ⟨2, _⟩ => show win0_4.index t (2 : Fin 3) * 128 ≤ (i 2).val ∧ (i 2).val < win0_4.index t (2 : Fin 3) * 128 + 128; rw [e2]; omega

end Cert.Glu.Blocks

end
-- ==== Proof.Acc.lean ====
/-
  The accumulators along a row tile's pass, and the output block at its last point.

  The grid has 8 row tiles of 256 batch rows and, for each, 39 points: point k of the pass takes tile k (128 entries)
  of the flattened rows and of the two weight arrays.  After point k of a row tile's pass each accumulator holds, at
  (r, f, e), the sum of the tiles 0 … k of the projection of the tile's row r on (f, e): the first point starts from
  zero, every later point adds its tile to what the point before left.  After the last point that sum is the whole
  projection, and the output block written there is the gated unit's result on the tile's rows.
-/
import proofs.«176921_j9904194585361_1_alg».proof.Proof.CaseA
import proofs.«176921_j9904194585361_1_alg».proof.Proof.CaseB
import proofs.«176921_j9904194585361_1_alg».proof.Proof.CaseC
import proofs.«176921_j9904194585361_1_alg».proof.Proof.Blocks
import proofs.«176921_j9904194585361_1_alg».proof.Proof.Spec
import proofs.«176921_j9904194585361_1_alg».proof.Proof.Gen.KernelIdeal.Value

set_option maxRecDepth 16384

noncomputable section

namespace Cert.Glu.Acc

open Cert.KernelIdeal Cert.KernelIdeal.Gen Idealize.ShloMosaic Idealize.ShloMosaic.TcCoe Idealize.SL.Sem Idealize.ShloMosaic.ValueIdx Cert.Glu.Rows Cert.Glu.Blocks
open Idealize.ShloMosaic.Pipeline (Dat)
open scoped BigOperators

variable (m : (ℓ : Loc nD τ sig) → Buf (Elt Ideal) ℓ) (c : Dev nD)

/-- The sum of the tiles 0 … k of the projection. -/
def upTo (X : SX.Idx → EReal) (K : SK.Idx → EReal) (b : Fin 2048) (f : Fin 39) (e : Fin 128) (k : Nat) : EReal :=
  ∑ j ∈ Finset.range (k + 1), tilePart X K b f e j

theorem upTo_succ (X : SX.Idx → EReal) (K : SK.Idx → EReal) (b : Fin 2048) (f : Fin 39) (e : Fin 128) (k : Nat) :
    upTo X K b f e k + tilePart X K b f e (k + 1) = upTo X K b f e (k + 1) :=
  (Finset.sum_range_succ _ _).symm

theorem upTo_zero (X : SX.Idx → EReal) (K : SK.Idx → EReal) (b : Fin 2048) (f : Fin 39) (e : Fin 128) :
    upTo X K b f e 0 = tilePart X K b f e 0 := Finset.sum_range_one _

theorem upTo_last (X : SX.Idx → EReal) (K : SK.Idx → EReal) (b : Fin 2048) (f : Fin 39) (e : Fin 128) :
    upTo X K b f e 38 = proj X K b f e := (proj_eq_tiles X K b f e).symm

/-- Entry `l` of the point's tile is entry `l` of tile `t % 39` of the flat axis. -/
theorem colIx_tile (t : Fin cfg0.N) (hlt : t.val % 39 < 39) (l : Fin 128) :
    colIx t l = TiledSum.tile (T := 39) (n := 128) (N := 4992) rfl ⟨t.val % 39, hlt⟩ l :=
  Fin.ext (by rw [colIx_val, TiledSum.tile_val])

/-- What a point's blocks contribute to the first accumulator is its tile of the first projection. -/
theorem contrib_tile1 (t : Fin cfg0.N) (r : Fin 256) (f : Fin 39) (e : Fin 128) :
    contrib (iblk m c 0 t) (iblk m c 2 t) r f e
      = tilePart (m ((c : Thread nD τ).loc main_arg0)) (m ((c : Thread nD τ).loc main_arg1)) (rowIx t r) f e (t.val % 39) := by
  have hlt : t.val % 39 < 39 := Nat.mod_lt _ (by norm_num)
  unfold contrib tilePart
  rw [dif_pos hlt]
  refine Finset.sum_congr rfl fun l _ => ?_
  rw [← colIx_tile t hlt l]
  exact congrArg₂ (· * ·) (blk0 m c t r l) (blk2 m c t e f l)

/-- What a point's blocks contribute to the second accumulator is its tile of the second projection. -/
theorem contrib_tile2 (t : Fin cfg0.N) (r : Fin 256) (f : Fin 39) (e : Fin 128) :
    contrib (iblk m c 0 t) (iblk m c 3 t) r f e
      = tilePart (m ((c : Thread nD τ).loc main_arg0)) (m ((c : Thread nD τ).loc main_arg2)) (rowIx t r) f e (t.val % 39) := by
  have hlt : t.val % 39 < 39 := Nat.mod_lt _ (by norm_num)
  unfold contrib tilePart
  rw [dif_pos hlt]
  refine Finset.sum_congr rfl fun l _ => ?_
  rw [← colIx_tile t hlt l]
  exact congrArg₂ (· * ·) (blk0 m c t r l) (blk3 m c t e f l)

/-- Inside a row tile's pass the point before works on the same rows. -/
theorem rowIx_pred (n : Nat) (hn : n < cfg0.N) (hp : n - 1 < cfg0.N) (h0 : ¬n % 39 = 0) (r : Fin 256) :
    rowIx ⟨n - 1, hp⟩ r = rowIx ⟨n, hn⟩ r :=
  Fin.ext (by rw [rowIx_val, rowIx_val]; show 256 * ((n - 1) / 39) + r.val = 256 * (n / 39) + r.val; omega)

/-- After every point: each accumulator holds the tiles up to the point's own of its projection. -/
theorem acc_inv : ∀ (n : Nat) (hn : n < cfg0.N),
    (∀ (r : Fin 256) (f : Fin 39) (e : Fin 128), (outsAt0 m c n hn).2.1 (ix3 r f e)
      = upTo (m ((c : Thread nD τ).loc main_arg0)) (m ((c : Thread nD τ).loc main_arg1)) (rowIx ⟨n, hn⟩ r) f e (n % 39))
    ∧ (∀ (r : Fin 256) (f : Fin 39) (e : Fin 128), (outsAt0 m c n hn).2.2 (ix3 r f e)
      = upTo (m ((c : Thread nD τ).loc main_arg0)) (m ((c : Thread nD τ).loc main_arg2)) (rowIx ⟨n, hn⟩ r) f e (n % 39)) := by
  intro n
  induction n using Nat.strong_induction_on with
  | _ n ih =>
    intro hn
    have hN : n < 312 := lt_of_lt_of_eq hn N_0
    by_cases h0 : n % 39 = 0
    · have h1 : ¬n % 39 = 38 := by omega
      rw [outsAt0_A m c ⟨n, hn⟩ h0 h1]
      dsimp only
      refine ⟨fun r f e => ?_, fun r f e => ?_⟩
      · refine (CaseA.sout0_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) r f e).trans ?_
        rw [contrib_tile1 m c ⟨n, hn⟩ r f e]
        show tilePart _ _ _ f e (n % 39) = upTo _ _ _ f e (n % 39)
        rw [h0, upTo_zero]
      · refine (CaseA.sout1_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) r f e).trans ?_
        rw [contrib_tile2 m c ⟨n, hn⟩ r f e]
        show tilePart _ _ _ f e (n % 39) = upTo _ _ _ f e (n % 39)
        rw [h0, upTo_zero]
    · have hp : n - 1 < cfg0.N := Nat.lt_of_le_of_lt (Nat.sub_le _ _) hn
      have ihp := ih (n - 1) (by omega) hp
      have hk : n % 39 = (n - 1) % 39 + 1 := by omega
      by_cases h1 : n % 39 = 38
      · rw [outsAt0_C m c ⟨n, hn⟩ h0 h1]
        dsimp only
        refine ⟨fun r f e => ?_, fun r f e => ?_⟩
        · refine (CaseC.sout0_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) hp).2.1 (outsAt0 m c (n - 1) hp).2.2 r f e).trans ?_
          rw [ihp.1 r f e, contrib_tile1 m c ⟨n, hn⟩ r f e, rowIx_pred n hn hp h0 r]
          show upTo _ _ _ f e ((n - 1) % 39) + tilePart _ _ _ f e (n % 39) = upTo _ _ _ f e (n % 39)
          rw [hk, upTo_succ]
        · refine (CaseC.sout1_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) hp).2.1 (outsAt0 m c (n - 1) hp).2.2 r f e).trans ?_
          rw [ihp.2 r f e, contrib_tile2 m c ⟨n, hn⟩ r f e, rowIx_pred n hn hp h0 r]
          show upTo _ _ _ f e ((n - 1) % 39) + tilePart _ _ _ f e (n % 39) = upTo _ _ _ f e (n % 39)
          rw [hk, upTo_succ]
      · rw [outsAt0_B m c ⟨n, hn⟩ h0 h1]
        dsimp only
        refine ⟨fun r f e => ?_, fun r f e => ?_⟩
        · refine (CaseB.sout0_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) hp).2.1 (outsAt0 m c (n - 1) hp).2.2 r f e).trans ?_
          rw [ihp.1 r f e, contrib_tile1 m c ⟨n, hn⟩ r f e, rowIx_pred n hn hp h0 r]
          show upTo _ _ _ f e ((n - 1) % 39) + tilePart _ _ _ f e (n % 39) = upTo _ _ _ f e (n % 39)
          rw [hk, upTo_succ]
        · refine (CaseB.sout1_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) hp).2.1 (outsAt0 m c (n - 1) hp).2.2 r f e).trans ?_
          rw [ihp.2 r f e, contrib_tile2 m c ⟨n, hn⟩ r f e, rowIx_pred n hn hp h0 r]
          show upTo _ _ _ f e ((n - 1) % 39) + tilePart _ _ _ f e (n % 39) = upTo _ _ _ f e (n % 39)
          rw [hk, upTo_succ]

/-- At the last point of a pass, what the point before left plus the point's own tile is the whole first projection. -/
theorem whole1 (t : Fin cfg0.N) (h1 : t.val % 39 = 38) (hp : t.val - 1 < cfg0.N) (r : Fin 256) (f : Fin 39) (k : Fin 128) :
    (outsAt0 m c (t.val - 1) hp).2.1 (ix3 r f k) + contrib (iblk m c 0 t) (iblk m c 2 t) r f k
      = proj (m ((c : Thread nD τ).loc main_arg0)) (m ((c : Thread nD τ).loc main_arg1)) (rowIx t r) f k := by
  obtain ⟨n, hn⟩ := t
  have hN : n < 312 := lt_of_lt_of_eq hn N_0
  have h1' : n % 39 = 38 := h1
  rw [(acc_inv m c (n - 1) hp).1 r f k, contrib_tile1 m c ⟨n, hn⟩ r f k, rowIx_pred n hn hp (by omega) r]
  show upTo _ _ _ f k ((n - 1) % 39) + tilePart _ _ _ f k (n % 39) = _
  rw [show (n - 1) % 39 = 37 by omega, h1', upTo_succ, upTo_last]

/-- The same for the second projection. -/
theorem whole2 (t : Fin cfg0.N) (h1 : t.val % 39 = 38) (hp : t.val - 1 < cfg0.N) (r : Fin 256) (f : Fin 39) (k : Fin 128) :
    (outsAt0 m c (t.val - 1) hp).2.2 (ix3 r f k) + contrib (iblk m c 0 t) (iblk m c 3 t) r f k
      = proj (m ((c : Thread nD τ).loc main_arg0)) (m ((c : Thread nD τ).loc main_arg2)) (rowIx t r) f k := by
  obtain ⟨n, hn⟩ := t
  have hN : n < 312 := lt_of_lt_of_eq hn N_0
  have h1' : n % 39 = 38 := h1
  rw [(acc_inv m c (n - 1) hp).2 r f k, contrib_tile2 m c ⟨n, hn⟩ r f k, rowIx_pred n hn hp (by omega) r]
  show upTo _ _ _ f k ((n - 1) % 39) + tilePart _ _ _ f k (n % 39) = _
  rw [show (n - 1) % 39 = 37 by omega, h1', upTo_succ, upTo_last]

/-- The output block written at the last point of a pass is the gated unit's result on the tile's rows. -/
theorem flush_eq (t : Fin cfg0.N) (h1 : t.val % 39 = 38) (r : Fin 256) (f : Fin 39) (e : Fin 128) :
    (outsAt0 m c t.val t.isLt).1 (ix3 r f e)
      = G (m ((c : Thread nD τ).loc main_arg0)) (m ((c : Thread nD τ).loc main_arg1)) (m ((c : Thread nD τ).loc main_arg2))
          (ix3 (rowIx t r) f e) := by
  have h0 : ¬t.val % 39 = 0 := by omega
  have hp : t.val - 1 < cfg0.N := Nat.lt_of_le_of_lt (Nat.sub_le _ _) t.isLt
  rw [outsAt0_C m c t h0 h1]
  dsimp only
  refine (CaseC.out_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) hp).2.1 (outsAt0 m c (t.val - 1) hp).2.2 r f e).trans ?_
  simp only [whole1 m c t h1 hp, whole2 m c t h1 hp, blk1 m c t, one_word]
  rw [G_ix3]
  rfl

/-- After the run the output array is the gated unit's result. -/
theorem final : (dats m 0 c).arrAt 4 cfg0.N
    = G (m ((c : Thread nD τ).loc main_arg0)) (m ((c : Thread nD τ).loc main_arg1)) (m ((c : Thread nD τ).loc main_arg2)) :=
  final_of_flush m c _ (fun t h1 r f e => flush_eq m c t h1 r f e)

end Cert.Glu.Acc

end
-- ==== Proof.RefIsG.lean ====
/-
  The reference program's result, read one element at a time, is the gated unit `Cert.Glu.G` of the three argument arrays.

  The reference flattens the batch to [2048, 4992], contracts each weight array with it over the flat axis and
  transposes the result to [2048, 39, 128]: at (b, f, e) that is the sum over d of K (e, f, d) times the flat entry
  (b, d), i.e. the projection with the two factors exchanged.  It then sums the first projection times the batch over
  the last axis, from the initial value 0, and applies 1 / (1 + exp (−s)) to that sum: the logistic function.  The
  result is the batch times (1 − gate) plus the second projection times the batch times the gate, the constants
  being the f32 words of 0 and 1.
-/
import proofs.«176921_j9904194585361_1_alg».proof.Proof.Spec
import proofs.«176921_j9904194585361_1_alg».proof.Proof.Gen.ReferenceIdeal.Read

noncomputable section

namespace Cert.Glu.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- The flattened batch at row `b`, entry `d`, is the batch at field `d / 128`, position `d % 128`. -/
theorem flat_read (x0 : (⟨S2048x39x128, .f32⟩ : BufTy).Contents (Elt Ideal)) (b : Fin 2048) (d : Fin 4992) :
    val_main_v0 (F := Ideal) x0 (ix2 b d) = Cert.Glu.flat x0 b d := by
  rw [val_main_v0_apply]
  unfold Cert.Glu.flat
  refine congrArg x0 (funext fun a => Fin.ext ?_)
  have hb : b.val < 2048 := b.isLt
  have hd : d.val < 4992 := d.isLt
  match a with
  | ⟨0, _⟩ => show (b.val * 4992 + d.val) / 4992 = b.val; omega
  | ⟨1, _⟩ => show (b.val * 4992 + d.val) / 128 % 39 = d.val / 128; omega
  | ⟨2, _⟩ => show (b.val * 4992 + d.val) % 128 = d.val % 128; omega

/-- The transposed contraction with a weight array `K` at (b, f, e) is the projection of row `b` on (f, e) through `K`:
    the same sum over the flat axis with the two factors of each term exchanged. -/
theorem contraction_read (x0 : (⟨S2048x39x128, .f32⟩ : BufTy).Contents (Elt Ideal)) (K : (⟨S128x39x4992, .f32⟩ : BufTy).Contents (Elt Ideal)) (b : Fin 2048) (f : Fin 39) (e : Fin 128) :
    ∑ k : Fin 4992, K (lidx_main_v1 (idx_main_v2 (ix3 b f e)) k) * (val_main_v0 (F := Ideal) x0) (ridx_main_v1 (idx_main_v2 (ix3 b f e)) k)
      = Cert.Glu.proj x0 K b f e := by
  unfold Cert.Glu.proj
  refine Finset.sum_congr rfl fun k _ => ?_
  have hl : lidx_main_v1 (idx_main_v2 (ix3 b f e)) k = ix3 e f k :=
    funext fun a => Fin.ext (by match a with | ⟨0, _⟩ => rfl | ⟨1, _⟩ => rfl | ⟨2, _⟩ => rfl)
  have hr : ridx_main_v1 (idx_main_v2 (ix3 b f e)) k = ix2 b k :=
    funext fun a => Fin.ext (by match a with | ⟨0, _⟩ => rfl | ⟨1, _⟩ => rfl)
  rw [hl, hr, flat_read, mul_comm]

/-- The first projection, as the reference computes it. -/
theorem proj1_read (x0 : (⟨S2048x39x128, .f32⟩ : BufTy).Contents (Elt Ideal)) (x1 : (⟨S128x39x4992, .f32⟩ : BufTy).Contents (Elt Ideal)) (b : Fin 2048) (f : Fin 39) (e : Fin 128) :
    val_main_v2 (F := Ideal) x0 x1 (ix3 b f e) = Cert.Glu.proj x0 x1 b f e := by
  rw [val_main_v2_apply, val_main_v1_apply]
  exact contraction_read x0 x1 b f e

/-- The second projection, as the reference computes it. -/
theorem proj2_read (x0 : (⟨S2048x39x128, .f32⟩ : BufTy).Contents (Elt Ideal)) (x2 : (⟨S128x39x4992, .f32⟩ : BufTy).Contents (Elt Ideal)) (b : Fin 2048) (f : Fin 39) (e : Fin 128) :
    val_main_v4 (F := Ideal) x0 x2 (ix3 b f e) = Cert.Glu.proj x0 x2 b f e := by
  rw [val_main_v4_apply, val_main_v3_apply]
  exact contraction_read x0 x2 b f e

/-- The sum the gate is the logistic function of: over the last axis, the first projection times the batch. -/
theorem gate_sum_read (x0 : (⟨S2048x39x128, .f32⟩ : BufTy).Contents (Elt Ideal)) (x1 : (⟨S128x39x4992, .f32⟩ : BufTy).Contents (Elt Ideal)) (b : Fin 2048) (f : Fin 39) :
    ∑ k : Fin 128, (val_main_v5 (F := Ideal) x0 x1) (idx_main_v6 (ix2 b f) k)
      = ∑ e : Fin 128, Cert.Glu.proj x0 x1 b f e * x0 (ix3 b f e) := by
  refine Finset.sum_congr rfl fun k _ => ?_
  have h : idx_main_v6 (ix2 b f) k = ix3 b f k :=
    funext fun a => Fin.ext (by match a with | ⟨0, _⟩ => rfl | ⟨1, _⟩ => rfl | ⟨2, _⟩ => rfl)
  rw [h, val_main_v5_apply, proj1_read, Ideal.mulf_def]

/-- The reference's 1 / (1 + exp (−s)), s the sum above started from the word of 0, is the gate of (b, f). -/
theorem gate_read (x0 : (⟨S2048x39x128, .f32⟩ : BufTy).Contents (Elt Ideal)) (x1 : (⟨S128x39x4992, .f32⟩ : BufTy).Contents (Elt Ideal)) (b : Fin 2048) (f : Fin 39) (z : Fin 1) :
    val_main_v13 (F := Ideal) x0 x1 (ix3 b f z) = Cert.Glu.gate x0 x1 b f := by
  have h7 : idx_main_v7 (ix3 b f z) = ix2 b f :=
    funext fun a => Fin.ext (by match a with | ⟨0, _⟩ => rfl | ⟨1, _⟩ => rfl)
  rw [val_main_v13_apply, val_main_v12_apply, val_main_cst_1_apply, val_main_v11_apply, val_main_v10_apply,
    val_main_cst_0_apply, val_main_v9_apply, val_main_v8_apply, val_main_v7_apply, h7, val_main_v6_apply,
    val_main_cst_apply, gate_sum_read]
  simp only [Ideal.ofBits_def, Cert.Glu.one_word, Ideal.ofBits_zero_f32, zero_add]
  rfl

/-- The reference's result is the gated unit. -/
theorem ref_eq_G (x0 : (⟨S2048x39x128, .f32⟩ : BufTy).Contents (Elt Ideal)) (x1 x2 : (⟨S128x39x4992, .f32⟩ : BufTy).Contents (Elt Ideal)) :
    val_main_v21 (F := Ideal) x0 x1 x2 = Cert.Glu.G x0 x1 x2 := by
  funext i
  obtain ⟨b, f, e, rfl⟩ : ∃ (b : Fin 2048) (f : Fin 39) (e : Fin 128), i = ix3 b f e := ⟨i 0, i 1, i 2, eq_ix3 i⟩
  have h17 : idx_main_v17 (ix3 b f e) = ix3 b f (0 : Fin 1) :=
    funext fun a => Fin.ext (by match a with | ⟨0, _⟩ => rfl | ⟨1, _⟩ => rfl | ⟨2, _⟩ => rfl)
  have h19 : idx_main_v19 (ix3 b f e) = ix3 b f (0 : Fin 1) :=
    funext fun a => Fin.ext (by match a with | ⟨0, _⟩ => rfl | ⟨1, _⟩ => rfl | ⟨2, _⟩ => rfl)
  rw [Cert.Glu.G_ix3, val_main_v21_apply, val_main_v18_apply, val_main_v17_apply, h17, val_main_v16_apply,
    val_main_v15_apply, val_main_cst_2_apply, val_main_v20_apply, val_main_v14_apply, val_main_v19_apply, h19,
    gate_read, proj2_read]
  simp only [Ideal.addf_def, Ideal.mulf_def, Ideal.subf_def, Ideal.ofBits_def, Cert.Glu.one_word]

/-- The term the reference's run states for its result buffer, as a function of the three argument arrays, is the gated unit. -/
theorem run_term_eq_G (x0 : (⟨S2048x39x128, .f32⟩ : BufTy).Contents (Elt Ideal)) (x1 x2 : (⟨S128x39x4992, .f32⟩ : BufTy).Contents (Elt Ideal)) :
    addf (F := Ideal) (mulf (x0) (broadcastInDim S2048x39x128 ![0, 1, 2] bcast_S2048x39x1_S2048x39x128_0_1_2 (subf (broadcastInDim S2048x39x1 ![] bcast_S_S2048x39x1 (constant S_ .f32 0x3F800000#32)) (Host.divf (broadcastInDim S2048x39x1 ![] bcast_S_S2048x39x1 (constant S_ .f32 0x3F800000#32)) (addf (broadcastInDim S2048x39x1 ![] bcast_S_S2048x39x1 (constant S_ .f32 0x3F800000#32)) (Host.exp (Host.negf (broadcastInDim S2048x39x1 ![0, 1] bcast_S2048x39_S2048x39x1_0_1 (Host.reduceAdd (mulf (transpose S2048x39x128 [2, 1, 0] (Host.dotGeneral (φ₁ := .f32) (φ₂ := .f32) dot_S128x39x4992_S2048x4992_S128x39x2048_2_1_01_0_n_n none (x1) (shapeCast _ (x0) shapeCasts_S2048x39x128_S2048x4992)) transposes_S128x39x2048_S2048x39x128_2_1_0) (x0)) (constant S_ .f32 0x00000000#32) reducesTo_S2048x39x128_S2048x39_d2 h_S_))))))))) (mulf (mulf (transpose S2048x39x128 [2, 1, 0] (Host.dotGeneral (φ₁ := .f32) (φ₂ := .f32) dot_S128x39x4992_S2048x4992_S128x39x2048_2_1_01_0_n_n none (x2) (shapeCast _ (x0) shapeCasts_S2048x39x128_S2048x4992)) transposes_S128x39x2048_S2048x39x128_2_1_0) (x0)) (broadcastInDim S2048x39x128 ![0, 1, 2] bcast_S2048x39x1_S2048x39x128_0_1_2 (Host.divf (broadcastInDim S2048x39x1 ![] bcast_S_S2048x39x1 (constant S_ .f32 0x3F800000#32)) (addf (broadcastInDim S2048x39x1 ![] bcast_S_S2048x39x1 (constant S_ .f32 0x3F800000#32)) (Host.exp (Host.negf (broadcastInDim S2048x39x1 ![0, 1] bcast_S2048x39_S2048x39x1_0_1 (Host.reduceAdd (mulf (transpose S2048x39x128 [2, 1, 0] (Host.dotGeneral (φ₁ := .f32) (φ₂ := .f32) dot_S128x39x4992_S2048x4992_S128x39x2048_2_1_01_0_n_n none (x1) (shapeCast _ (x0) shapeCasts_S2048x39x128_S2048x4992)) transposes_S128x39x2048_S2048x39x128_2_1_0) (x0)) (constant S_ .f32 0x00000000#32) reducesTo_S2048x39x128_S2048x39_d2 h_S_))))))))
      = Cert.Glu.G x0 x1 x2 :=
  (val_main_v21_eq (F := Ideal) x0 x1 x2).trans (ref_eq_G x0 x1 x2)

/-- Every weakly fair execution of the reference terminates with its result buffer holding the gated unit of the three
    argument arrays' launch contents, and the argument arrays unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = Cert.Glu.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by rw [(h c).1, run_term_eq_G], (h c).2⟩)
    (Cert.ReferenceIdeal.Value.run (F := Ideal) m ρ)

end Cert.Glu.Ref

end
-- ==== Proof.lean ====
/-
  The gated unit computed by a tiled kernel agrees with its plain definition on the extended reals.

  For a batch X [2048, 39, 128] and two weight arrays K1, K2 [128, 39, 4992], row b of the batch flattened to 4992
  entries is projected through each weight array on every field f and position e; the gate of (b, f) is the logistic
  function of the sum over e of the first projection times X, and the result is X · (1 − gate) + (second projection
  · X) · gate (Proof/Spec.lean).  The reference computes exactly this, with the two factors of each product in the
  other order (Proof/RefIsG.lean).  The kernel walks a grid of 8 row tiles by 39 tiles of the flat axis: at each point
  it adds, for every field, the point's 128-entry tile of both projections to two accumulators (zeroed at the first
  point of a row tile), and at the last point of the row tile it computes the gate and the result from the finished
  accumulators (Proof/Step.lean, Rows.lean, CaseA/B/C.lean, Acc.lean, Blocks.lean).  A sum of 4992 products taken as
  39 sums of 128, each added to the running total, is the same sum: addition of extended reals is associative and
  commutative, and no other law is needed, so the precondition is never opened.

  The three programs' runs (termination, no fault, arguments unchanged) are the generated frame runs; the idealized
  kernel is the kernel's own text read on the extended reals, so there is nothing to preserve.
-/
import proofs.«176921_j9904194585361_1_alg».proof.Defs
import proofs.«176921_j9904194585361_1_alg».proof.Proof.Gen.Kernel
import proofs.«176921_j9904194585361_1_alg».proof.Proof.Gen.Kernel.Skeleton
import proofs.«176921_j9904194585361_1_alg».proof.Proof.Gen.Kernel.Launch
import proofs.«176921_j9904194585361_1_alg».proof.Proof.Gen.Kernel.Points
import proofs.«176921_j9904194585361_1_alg».proof.Proof.Gen.Kernel.Frame
import proofs.«176921_j9904194585361_1_alg».proof.Proof.Gen.KernelIdeal
import proofs.«176921_j9904194585361_1_alg».proof.Proof.Gen.KernelIdeal.Skeleton
import proofs.«176921_j9904194585361_1_alg».proof.Proof.Gen.KernelIdeal.Launch
import proofs.«176921_j9904194585361_1_alg».proof.Proof.Gen.KernelIdeal.Points
import proofs.«176921_j9904194585361_1_alg».proof.Proof.Gen.KernelIdeal.Frame
import proofs.«176921_j9904194585361_1_alg».proof.Proof.Gen.KernelIdeal.Value
import proofs.«176921_j9904194585361_1_alg».proof.Proof.Gen.ReferenceIdeal
import proofs.«176921_j9904194585361_1_alg».proof.Proof.Gen.ReferenceIdeal.Run
import proofs.«176921_j9904194585361_1_alg».proof.Proof.Gen.ReferenceIdeal.Read
import proofs.«176921_j9904194585361_1_alg».proof.Proof.Gen.Pre_finite_inputs
import proofs.«176921_j9904194585361_1_alg».proof.Proof.Acc
import proofs.«176921_j9904194585361_1_alg».proof.Proof.RefIsG
import Idealize.ShloMosaic.Adequacy
import Idealize.ShloMosaic.Init

noncomputable section

namespace Cert.Proof

open Idealize.ShloMosaic Idealize.ShloMosaic.TcCoe Idealize.SL.Sem

/-- The idealized kernel's run ends with the output array at the gated unit's result and the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v1)
            = Cert.Glu.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run (Cert.KernelIdeal.defs (F := Ideal)) _ _).mono
    (fun r h c => ⟨(h c).1.trans (Cert.Glu.Acc.final m c), (h c).2⟩)
    (Cert.KernelIdeal.Value.run_blocks (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end at the gated unit's result of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.Glu.Ref.run_G m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
